-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 82
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S100000x64, .f32⟩
  | .hbm, ⟨64, _⟩ => ⟨S100000x40, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x40, .f32⟩
  | .hbm, ⟨74, _⟩ => ⟨S1700000x1, .f32⟩
  | .hbm, ⟨75, _⟩ => ⟨S1700000x40, .f32⟩
  | .hbm, ⟨76, _⟩ => ⟨S1700000x40, .f32⟩
  | .hbm, ⟨77, _⟩ => ⟨S_, .f32⟩
  | .hbm, ⟨78, _⟩ => ⟨S100000x40, .f32⟩
  | .hbm, ⟨79, _⟩ => ⟨S1700000x1, .i32⟩
  | .hbm, ⟨80, _⟩ => ⟨S100000x40, .f32⟩
  | .hbm, ⟨81, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S40, .f32⟩
  | .local _ .vmem, ⟨18, _⟩ => ⟨S10000x40, .f32⟩
  | .local _ .vmem, ⟨19, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S10000x40_S10000x40 : S10000x40.ShapeCasts S10000x40
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S40.size a ≤ S40.size a
  hwx3_1 : ∀ i : grid3.Coords, EltTy.bits .f32 = 32 ∨ (Rect.block (s := S40) S40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x40, .f32⟩
  | 5 => ⟨S40, .f32⟩
  | 6 => ⟨S100000x64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x40, .f32⟩
  | 70 => ⟨S100000, .i32⟩
  | 71 => ⟨S1x1600000, .i32⟩
  | 72 => ⟨S1600000, .i32⟩
  | 73 => ⟨S1700000, .i32⟩
  | 74 => ⟨S1x1600000, .i32⟩
  | 75 => ⟨S1600000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x40, .f32⟩
  | 119 => ⟨S1700000x1, .f32⟩
  | 120 => ⟨S1700000x40, .f32⟩
  | 121 => ⟨S1700000x40, .f32⟩
  | 122 => ⟨S_, .f32⟩
  | 123 => ⟨S100000x40, .f32⟩
  | 124 => ⟨S1700000x1, .i32⟩
  | 125 => ⟨S100000x40, .f32⟩
  | 126 => ⟨S1x40, .f32⟩
  | 127 => ⟨S100000x40, .f32⟩
  | _ => ⟨S100000x128, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«112788_j34746285424664_1_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.GcnSpec.lean ====
/-
  The two-layer graph convolution, stated index by index on the extended reals, and the vector operations of a
  row-wise log-softmax read at an index.

  * `lin A B`        — the matrix product: entry (r, q) is the sum over k of A (r, k) * B (k, q);
  * `biasRelu A b`   — a bias row added to every row, then the maximum with zero;
  * `biasLsm A b`    — a bias row added to every row, then the row-wise log-softmax in its shifted form: with
                       z = A + b and M r = max (-inf) (sup over the columns of z (r, ·)), the entry (r, q) is
                       (z (r, q) - M r) - log (sum over k of exp (z (r, k) - M r)).
  Each is ROW-LOCAL: row r of the result depends on row r of A only. That is what lets a kernel compute it block of
  rows by block of rows.
-/
import Idealize.ShloMosaic.PureOps.Ideal.Laws
import Idealize.ShloMosaic.Lib.Pipeline.Value
import Idealize.ShloMosaic.Lib.ValueIdx
import Idealize.ShloMosaic.Lib.ValueLayout
import proofs.«112788_j34746285424664_1_alg».proof.Proof.LibRowReduceProducts

noncomputable section

open scoped BigOperators

namespace Cert.Gcn

open Idealize.ShloMosaic Idealize.ShloMosaic.ValueIdx

/-- An [n, k] array of extended reals. -/
abbrev Mat (n k : ℕ) : Type := (⟨2, ![n, k]⟩ : Shape).Idx → EReal
/-- A length-k vector of extended reals. -/
abbrev Row (k : ℕ) : Type := (⟨1, ![k]⟩ : Shape).Idx → EReal

/-- The matrix product. -/
def lin {n K N : ℕ} (A : Mat n K) (B : Mat K N) : Mat n N :=
  fun i => ∑ k : Fin K, A (ix2 (i 0) k) * B (ix2 k (i 1))

/-- A bias row added to every row, then the maximum with the number the zero word denotes. -/
def biasRelu {n N : ℕ} (A : Mat n N) (b : Row N) : Mat n N :=
  fun i => max (A i + b (ix1 (i 1))) (Ideal.ofBits .f32 0x00000000#32)

/-- The shift of row r: the larger of minus infinity and the row's supremum after the bias. -/
def rowShift {n N : ℕ} (A : Mat n N) (b : Row N) (r : Fin n) : EReal :=
  max (Ideal.ofBits .f32 0xFF800000#32) (Finset.univ.sup fun k : Fin N => A (ix2 r k) + b (ix1 k))

/-- A bias row added to every row, then the row-wise log-softmax in its shifted form. -/
def biasLsm {n N : ℕ} (A : Mat n N) (b : Row N) : Mat n N :=
  fun i => (A i + b (ix1 (i 1)) - rowShift A b (i 0))
    - Ideal.log (∑ k : Fin N, Ideal.exp (A (ix2 (i 0) k) + b (ix1 k) - rowShift A b (i 0)))

theorem lin_apply {n K N : ℕ} (A : Mat n K) (B : Mat K N) (r : Fin n) (q : Fin N) :
    lin A B (ix2 r q) = ∑ k : Fin K, A (ix2 r k) * B (ix2 k q) := rfl

theorem biasRelu_apply {n N : ℕ} (A : Mat n N) (b : Row N) (r : Fin n) (q : Fin N) :
    biasRelu A b (ix2 r q) = max (A (ix2 r q) + b (ix1 q)) (Ideal.ofBits .f32 0x00000000#32) := rfl

theorem biasLsm_apply {n N : ℕ} (A : Mat n N) (b : Row N) (r : Fin n) (q : Fin N) :
    biasLsm A b (ix2 r q) = (A (ix2 r q) + b (ix1 q) - rowShift A b r)
      - Ideal.log (∑ k : Fin N, Ideal.exp (A (ix2 r k) + b (ix1 k) - rowShift A b r)) := rfl

/-! ## Column forms of the layout operations -/

variable {α : Type}

/-- A length-a vector cast to an [a, 1] column reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-! ## The vector operations of a row-wise log-softmax -/

section Lsm

variable {a b : ℕ} (z : FVec Ideal ⟨2, ![a, b]⟩ .f32)
  (hr : Shape.Reduces ⟨2, ![a, b]⟩ [1] ⟨1, ![a]⟩)
  (hc : (⟨1, ![a]⟩ : Shape).ShapeCasts ⟨2, ![a, 1]⟩)
  (hb : (⟨2, ![a, 1]⟩ : Shape).Broadcasts ⟨2, ![a, b]⟩)

/-- The shift of each row: the maximum of a splat of minus infinity and the row maximum. -/
def lsmShift : FVec Ideal ⟨1, ![a]⟩ .f32 :=
  maximumf (broadcast ⟨1, ![a]⟩ (Scalar.ofBits (F := Ideal) .f32 0xFF800000#32))
    (multiReduction .maximumf [1] ⟨1, ![a]⟩ z 0xFF800000#32 hr (.inl rfl) rfl)

/-- Every row minus its shift. -/
def lsmCentered : FVec Ideal ⟨2, ![a, b]⟩ .f32 :=
  subf z (broadcastTo ⟨2, ![a, b]⟩ (shapeCast ⟨2, ![a, 1]⟩ (lsmShift z hr) hc) hb)

/-- The centred rows minus the logarithm of the row sums of their exponentials. -/
def lsmVec : FVec Ideal ⟨2, ![a, b]⟩ .f32 :=
  subf (lsmCentered z hr hc hb)
    (broadcastTo ⟨2, ![a, b]⟩
      (log (shapeCast ⟨2, ![a, 1]⟩
        (multiReduction .add [1] ⟨1, ![a]⟩ (exp (lsmCentered z hr hc hb)) 0x00000000#32 hr (.inl rfl) rfl) hc)) hb)

theorem lsmShift_apply (p : Fin a) :
    lsmShift z hr (ix1 p) = max (Ideal.ofBits .f32 0xFF800000#32) (Finset.univ.sup fun k : Fin b => z (ix2 p k)) := by
  unfold lsmShift
  exact congrArg (max (Ideal.ofBits .f32 0xFF800000#32))
    (Cert.LibRowReduceProducts.rowMax_apply z hr (.inl rfl) rfl p)

theorem lsmCentered_apply (p : Fin a) (q : Fin b) :
    lsmCentered z hr hc hb (ix2 p q)
      = z (ix2 p q) - max (Ideal.ofBits .f32 0xFF800000#32) (Finset.univ.sup fun k : Fin b => z (ix2 p k)) := by
  unfold lsmCentered
  show z (ix2 p q) - broadcastTo ⟨2, ![a, b]⟩ (shapeCast ⟨2, ![a, 1]⟩ (lsmShift z hr) hc) hb (ix2 p q) = _
  rw [broadcastTo_a1_ab_apply, shapeCast_a_a1_apply, lsmShift_apply]

theorem lsmVec_apply (p : Fin a) (q : Fin b) :
    lsmVec z hr hc hb (ix2 p q)
      = (z (ix2 p q) - max (Ideal.ofBits .f32 0xFF800000#32) (Finset.univ.sup fun k : Fin b => z (ix2 p k)))
        - Ideal.log (∑ k : Fin b, Ideal.exp
            (z (ix2 p k) - max (Ideal.ofBits .f32 0xFF800000#32) (Finset.univ.sup fun k : Fin b => z (ix2 p k)))) := by
  unfold lsmVec
  show lsmCentered z hr hc hb (ix2 p q)
      - broadcastTo ⟨2, ![a, b]⟩ (log (shapeCast ⟨2, ![a, 1]⟩
          (multiReduction .add [1] ⟨1, ![a]⟩ (exp (lsmCentered z hr hc hb)) 0x00000000#32 hr (.inl rfl) rfl) hc)) hb (ix2 p q) = _
  rw [broadcastTo_a1_ab_apply]
  show lsmCentered z hr hc hb (ix2 p q)
      - Ideal.log (shapeCast ⟨2, ![a, 1]⟩
          (multiReduction .add [1] ⟨1, ![a]⟩ (exp (lsmCentered z hr hc hb)) 0x00000000#32 hr (.inl rfl) rfl) hc (ix2 p (0 : Fin 1))) = _
  rw [shapeCast_a_a1_apply, lsmCentered_apply]
  refine congrArg₂ (· - ·) rfl (congrArg Ideal.log ?_)
  refine (Cert.LibRowReduceProducts.rowSum_apply (exp (lsmCentered z hr hc hb)) hr (.inl rfl) rfl p).trans ?_
  exact Finset.sum_congr rfl fun k _ => congrArg Ideal.exp (lsmCentered_apply z hr hc hb p k)

end Lsm

end Cert.Gcn

end
-- ==== Proof.KernelPays.lean ====
/-
  What each of the four kernel bodies stores, read at an index of its block at the ideal values: the body of the
  first and third kernels is a block of rows of the matrix product, the second's is the bias and the maximum with
  zero, the fourth's is the bias and the shifted log-softmax of each row. (A rounding to bf16 on the way into the
  product is the identity on the extended reals.)
-/
import proofs.«112788_j34746285424664_1_alg».proof.Proof.Gen.KernelIdeal.Skeleton
import proofs.«112788_j34746285424664_1_alg».proof.Proof.GcnSpec

noncomputable section

open scoped BigOperators

namespace Cert.Gcn

open Idealize.ShloMosaic Idealize.ShloMosaic.ValueIdx Cert.KernelIdeal Cert.KernelIdeal.Gen

/-- First kernel: entry (p, q) of the stored block is row p of the x block against column q of the weights. -/
theorem pay0_apply (x0 : Vec Ideal S10000x128 .f32) (x1 : Vec Ideal S128x64 .f32) (p : Fin 10000) (q : Fin 64) :
    k0_pay1 (F := Ideal) x0 x1 (ix2 p q) = ∑ r : Fin 128, x0 (ix2 p r) * x1 (ix2 r q) := by
  unfold k0_pay1
  exact Cert.LibRowReduceProducts.matmulNN dot_S10000x128_S128x64_S10000x64_1_0_0_1_n_n rfl rfl rfl rfl rfl rfl none
    (truncf .bf16 x0 bitsLt_bf16_f32) (truncf .bf16 x1 bitsLt_bf16_f32) p q

/-- Third kernel: the same product on [10000, 64] blocks against the [64, 40] weights. -/
theorem pay2_apply (x0 : Vec Ideal S10000x64 .f32) (x1 : Vec Ideal S64x40 .f32) (p : Fin 10000) (q : Fin 40) :
    k2_pay1 (F := Ideal) x0 x1 (ix2 p q) = ∑ r : Fin 64, x0 (ix2 p r) * x1 (ix2 r q) := by
  unfold k2_pay1
  rw [shapeCast_self]
  exact Cert.LibRowReduceProducts.matmulNN dot_S10000x64_S64x40_S10000x40_1_0_0_1_n_n rfl rfl rfl rfl rfl rfl none
    (truncf .bf16 x0 bitsLt_bf16_f32) (truncf .bf16 x1 bitsLt_bf16_f32) p q

/-- Second kernel: the bias added along the rows, then the maximum with zero. -/
theorem pay1_apply (x0 : Vec Ideal S10000x64 .f32) (x1 : Vec Ideal S64 .f32) (p : Fin 10000) (q : Fin 64) :
    k1_pay1 (F := Ideal) x0 x1 (ix2 p q) = max (x0 (ix2 p q) + x1 (ix1 q)) (Ideal.ofBits .f32 0x00000000#32) := by
  unfold k1_pay1
  rw [shapeCast_self]
  show max (x0 (ix2 p q) + broadcastTo S10000x64 (shapeCast S1x64 x1 shapeCasts_S64_S1x64) broadcasts_S1x64_S10000x64 (ix2 p q)) _ = _
  rw [broadcastTo_1b_ab_apply, shapeCast_a_1a_apply]
  rfl

/-- The sum the fourth kernel takes the log-softmax of: the block plus the bias row. -/
theorem biased3_apply (x0 : Vec Ideal S10000x40 .f32) (x1 : Vec Ideal S40 .f32) (p : Fin 10000) (q : Fin 40) :
    addf (F := Ideal) (φ := .f32) (shapeCast S10000x40 x0 shapeCasts_S10000x40_S10000x40)
      (broadcastTo S10000x40 (shapeCast S1x40 x1 shapeCasts_S40_S1x40) broadcasts_S1x40_S10000x40) (ix2 p q)
      = x0 (ix2 p q) + x1 (ix1 q) := by
  rw [shapeCast_self]
  show x0 (ix2 p q) + broadcastTo S10000x40 (shapeCast S1x40 x1 shapeCasts_S40_S1x40) broadcasts_S1x40_S10000x40 (ix2 p q) = _
  rw [broadcastTo_1b_ab_apply, shapeCast_a_1a_apply]

/-- Fourth kernel: its body is the row-wise log-softmax operations applied to the biased block. -/
theorem pay3_eq (x0 : Vec Ideal S10000x40 .f32) (x1 : Vec Ideal S40 .f32) :
    k3_pay1 (F := Ideal) x0 x1
      = lsmVec (addf (F := Ideal) (φ := .f32) (shapeCast S10000x40 x0 shapeCasts_S10000x40_S10000x40)
          (broadcastTo S10000x40 (shapeCast S1x40 x1 shapeCasts_S40_S1x40) broadcasts_S1x40_S10000x40))
        reduces_S10000x40_S10000 shapeCasts_S10000_S10000x1 broadcasts_S10000x1_S10000x40 := rfl

/-- Fourth kernel: entry (p, q) of the stored block is the shifted log-softmax of row p of the biased block. -/
theorem pay3_apply (x0 : Vec Ideal S10000x40 .f32) (x1 : Vec Ideal S40 .f32) (p : Fin 10000) (q : Fin 40) :
    k3_pay1 (F := Ideal) x0 x1 (ix2 p q)
      = (x0 (ix2 p q) + x1 (ix1 q)
          - max (Ideal.ofBits .f32 0xFF800000#32) (Finset.univ.sup fun k : Fin 40 => x0 (ix2 p k) + x1 (ix1 k)))
        - Ideal.log (∑ k : Fin 40, Ideal.exp (x0 (ix2 p k) + x1 (ix1 k)
          - max (Ideal.ofBits .f32 0xFF800000#32) (Finset.univ.sup fun k : Fin 40 => x0 (ix2 p k) + x1 (ix1 k)))) := by
  rw [pay3_eq, lsmVec_apply]
  simp only [biased3_apply]

end Cert.Gcn

end
-- ==== Proof.KernelRegions.lean ====
/-
  Each of the four kernel launches, over its ten blocks of 10000 rows, leaves in its output array ONE row-local
  function of the arrays it found at entry: the matrix product (first and third launch), the bias and maximum with
  zero (second), the bias and row-wise log-softmax (fourth). Per launch: the grid's index maps decided once over the
  ten points; what a symbolic point writes back is that function read through the point's block (a block's row
  p sits at row 10000 * t + p of the array, the small operand is the whole array at every point); the ten blocks
  cover the array.
-/
import proofs.«112788_j34746285424664_1_alg».proof.Proof.Gen.KernelIdeal.Frame
import proofs.«112788_j34746285424664_1_alg».proof.Proof.KernelPays

set_option maxRecDepth 16384

noncomputable section

open scoped BigOperators

namespace Cert.Gcn

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-! ## Launch 0 -/

/-- The index maps of launch 0, decided over its ten points: the row-block index of the input and of the output is the
    same, every other block index is zero. -/
theorem idx0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the ten row blocks is some point's. -/
theorem onto0 : ∀ q : Fin 10, ∃ t : Fin cfg0.N, win0_2.index t = ![q.val, 0] :=
  (by decide +kernel : ∀ q : Fin 10, ∃ t : Fin grid0.N, win0_2.index t = ![q.val, 0])

/-- A block of rows of the product: if row (y 0) of the block is row (i 0) of A and the small operand is B, the body's
    entry y is the product's entry i. -/
theorem block0 (A : Mat 100000 128) (B : Mat 128 64) (x0 : Vec Ideal S10000x128 .f32) (x1 : Vec Ideal S128x64 .f32)
    (y : S10000x64.Idx) (i : S100000x64.Idx)
    (h0 : ∀ r : Fin 128, x0 (ix2 (y 0) r) = A (ix2 (i 0) r))
    (h1 : ∀ r : Fin 128, x1 (ix2 r (y 1)) = B (ix2 r (i 1))) :
    k0_pay1 (F := Ideal) x0 x1 y = lin A B i := by
  refine ((congrArg (k0_pay1 (F := Ideal) x0 x1) (eq_ix2 y)).trans (pay0_apply x0 x1 (y 0) (y 1))).trans ?_
  show _ = ∑ k : Fin 128, A (ix2 (i 0) k) * B (ix2 k (i 1))
  exact Finset.sum_congr rfl fun r _ => by rw [h0 r, h1 r]

/-- What point t of launch 0 writes back is the function of the entry arrays read through the point's block. -/
theorem flushed0 (c : Dev nD) (t : Fin cfg0.N) :
    (dat0 (F := Ideal) V c).flushed 2 t
      = ((cfg0.win 2).blk t).view.read (Elt Ideal) (lin (V c main_arg0) (V c main_arg2)) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x64) zeros2]
  obtain ⟨e0, e1, e2, e3, e4⟩ := idx0 t
  funext j
  show k0_pay1 (F := Ideal) (iblk0 V c 0 t) (iblk0 V c 1 t) j
    = lin (V c main_arg0) (V c main_arg2) (((cfg0.win 2).blk t).view.emb j)
  refine block0 (V c main_arg0) (V c main_arg2) (iblk0 V c 0 t) (iblk0 V c 1 t) j (((cfg0.win 2).blk t).view.emb j)
    (fun r => ?_) (fun r => ?_)
  · show V c main_arg0 (((cfg0.win 0).blk t).view.emb (ix2 (j 0) r))
      = V c main_arg0 (ix2 ((((cfg0.win 2).blk t).view.emb j) 0) r)
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      rw [e0]
    | ⟨1, _⟩ =>
      show win0_0.index t (1 : Fin 2) * 128 + 1 * r.val = r.val
      rw [e1]; omega
  · show V c main_arg2 (((cfg0.win 1).blk t).view.emb (ix2 r (j 1)))
      = V c main_arg2 (ix2 r ((((cfg0.win 2).blk t).view.emb j) 1))
    refine congrArg (V c main_arg2) (funext fun a => Fin.ext ?_)
    match a with
    | ⟨0, _⟩ =>
      show win0_1.index t (0 : Fin 2) * 128 + 1 * r.val = r.val
      rw [e2]; omega
    | ⟨1, _⟩ =>
      show win0_1.index t (1 : Fin 2) * 64 + 1 * (j 1).val = win0_2.index t (1 : Fin 2) * 64 + 1 * (j 1).val
      rw [e3, e4]

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- The ten blocks cover the output array: row r is in block r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The output array of launch 0 after its ten points. -/
theorem arr0 (c : Dev nD) :
    (dat0 (F := Ideal) V c).arrAt 2 cfg0.N = lin (V c main_arg0) (V c main_arg2) :=
  (dat0 V c).arrAt_eq_of_cover 2 _ (fun t _ => flushed0 V c t) cover0

/-! ## Launch 1 -/

/-- The index maps of launch 1, decided over its ten points: the row-block index of the input and of the output is the
    same, every other block index is zero. -/
theorem idx1 : ∀ t : Fin cfg1.N, win1_0.index t (0 : Fin 2) = win1_2.index t (0 : Fin 2)
    ∧ win1_0.index t (1 : Fin 2) = 0 ∧ win1_1.index t (0 : Fin 1) = 0
    ∧ win1_2.index t (1 : Fin 2) = 0 :=
  (by decide +kernel : ∀ t : Fin grid1.N, _)

/-- Every one of the ten row blocks is some point's. -/
theorem onto1 : ∀ q : Fin 10, ∃ t : Fin cfg1.N, win1_2.index t = ![q.val, 0] :=
  (by decide +kernel : ∀ q : Fin 10, ∃ t : Fin grid1.N, win1_2.index t = ![q.val, 0])

/-- A block of rows of the biased maximum: if row (y 0) of the block is row (i 0) of A, the column is the same and the
    small operand is b, the body's entry y is the entry i of the whole-array function. -/
theorem block1 (A : Mat 100000 64) (b : Row 64) (x0 : Vec Ideal S10000x64 .f32) (x1 : Vec Ideal S64 .f32)
    (y : S10000x64.Idx) (i : S100000x64.Idx)
    (h0 : ∀ k : Fin 64, x0 (ix2 (y 0) k) = A (ix2 (i 0) k)) (hq : (y 1).val = (i 1).val)
    (h1 : ∀ k : Fin 64, x1 (ix1 k) = b (ix1 k)) :
    k1_pay1 (F := Ideal) x0 x1 y = biasRelu A b i := by
  obtain ⟨p, q, rfl⟩ : ∃ (p : Fin 10000) (q : Fin 64), y = ix2 p q := ⟨y 0, y 1, eq_ix2 y⟩
  obtain ⟨r, s, rfl⟩ : ∃ (r : Fin 100000) (s : Fin 64), i = ix2 r s := ⟨i 0, i 1, eq_ix2 i⟩
  have h0' : ∀ k : Fin 64, x0 (ix2 p k) = A (ix2 r k) := h0
  have hq' : q = s := Fin.ext hq
  subst hq'
  rw [pay1_apply, biasRelu_apply, h0', h1]

/-- What point t of launch 1 writes back is the function of the entry arrays read through the point's block. -/
theorem flushed1 (c : Dev nD) (t : Fin cfg1.N) :
    (dat1 (F := Ideal) V c).flushed 2 t
      = ((cfg1.win 2).blk t).view.read (Elt Ideal) (biasRelu (V c main_v43) (V c main_arg3)) := by
  show (cfg1.win 2).cut (grid1.coords t) ((dat1 V c).after 2 t) = _
  rw [after1_2]
  unfold out1_2
  rw [View.canon_unit_zero zeros2]
  simp only [View.ld_unit_zero (S := S10000x64) zeros2, View.ld_unit_zero (S := S64) zeros1]
  obtain ⟨e0, e1, e2, e4⟩ := idx1 t
  funext j
  show k1_pay1 (F := Ideal) (iblk1 V c 0 t) (iblk1 V c 1 t) j
    = biasRelu (V c main_v43) (V c main_arg3) (((cfg1.win 2).blk t).view.emb j)
  refine block1 (V c main_v43) (V c main_arg3) (iblk1 V c 0 t) (iblk1 V c 1 t) j (((cfg1.win 2).blk t).view.emb j)
    (fun k => ?_) ?_ (fun k => ?_)
  · show V c main_v43 (((cfg1.win 0).blk t).view.emb (ix2 (j 0) k))
      = V c main_v43 (ix2 ((((cfg1.win 2).blk t).view.emb j) 0) k)
    refine congrArg (V c main_v43) (funext fun a => Fin.ext ?_)
    match a with
    | ⟨0, _⟩ =>
      show win1_0.index t (0 : Fin 2) * 10000 + 1 * (j 0).val = win1_2.index t (0 : Fin 2) * 10000 + 1 * (j 0).val
      rw [e0]
    | ⟨1, _⟩ =>
      show win1_0.index t (1 : Fin 2) * 64 + 1 * k.val = k.val
      rw [e1]; omega
  · show (j 1).val = win1_2.index t (1 : Fin 2) * 64 + 1 * (j 1).val
    rw [e4]; omega
  · show V c main_arg3 (((cfg1.win 1).blk t).view.emb (ix1 k)) = V c main_arg3 (ix1 k)
    refine congrArg (V c main_arg3) (funext fun a => Fin.ext ?_)
    match a with
    | ⟨0, _⟩ =>
      show win1_1.index t (0 : Fin 1) * 64 + 1 * k.val = k.val
      rw [e2]; omega

/-- An index of the output array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v44).slice (win1_2.rect t)).set ↔ _
  rw [View.set_slice_whole, Rect.mem_set_unit]
  exact Iff.rfl

/-- The ten blocks cover the output array: row r is in block r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- The output array of launch 1 after its ten points. -/
theorem arr1 (c : Dev nD) :
    (dat1 (F := Ideal) V c).arrAt 2 cfg1.N = biasRelu (V c main_v43) (V c main_arg3) :=
  (dat1 V c).arrAt_eq_of_cover 2 _ (fun t _ => flushed1 V c t) cover1

/-! ## Launch 2 -/

/-- The index maps of launch 2, decided over its ten points: the row-block index of the input and of the output is the
    same, every other block index is zero. -/
theorem idx2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every one of the ten row blocks is some point's. -/
theorem onto2 : ∀ q : Fin 10, ∃ t : Fin cfg2.N, win2_2.index t = ![q.val, 0] :=
  (by decide +kernel : ∀ q : Fin 10, ∃ t : Fin grid2.N, win2_2.index t = ![q.val, 0])

/-- A block of rows of the product: if row (y 0) of the block is row (i 0) of A and the small operand is B, the body's
    entry y is the product's entry i. -/
theorem block2 (A : Mat 100000 64) (B : Mat 64 40) (x0 : Vec Ideal S10000x64 .f32) (x1 : Vec Ideal S64x40 .f32)
    (y : S10000x40.Idx) (i : S100000x40.Idx)
    (h0 : ∀ r : Fin 64, x0 (ix2 (y 0) r) = A (ix2 (i 0) r))
    (h1 : ∀ r : Fin 64, x1 (ix2 r (y 1)) = B (ix2 r (i 1))) :
    k2_pay1 (F := Ideal) x0 x1 y = lin A B i := by
  refine ((congrArg (k2_pay1 (F := Ideal) x0 x1) (eq_ix2 y)).trans (pay2_apply x0 x1 (y 0) (y 1))).trans ?_
  show _ = ∑ k : Fin 64, A (ix2 (i 0) k) * B (ix2 k (i 1))
  exact Finset.sum_congr rfl fun r _ => by rw [h0 r, h1 r]

/-- What point t of launch 2 writes back is the function of the entry arrays read through the point's block. -/
theorem flushed2 (c : Dev nD) (t : Fin cfg2.N) :
    (dat2 (F := Ideal) V c).flushed 2 t
      = ((cfg2.win 2).blk t).view.read (Elt Ideal) (lin (V c main_v44) (V c main_arg4)) := by
  show (cfg2.win 2).cut (grid2.coords t) ((dat2 V c).after 2 t) = _
  rw [after2_2]
  unfold out2_2
  rw [View.canon_unit_zero zeros2]
  simp only [View.ld_unit_zero (S := S10000x64) zeros2, View.ld_unit_zero (S := S64x40) zeros2]
  obtain ⟨e0, e1, e2, e3, e4⟩ := idx2 t
  funext j
  show k2_pay1 (F := Ideal) (iblk2 V c 0 t) (iblk2 V c 1 t) j
    = lin (V c main_v44) (V c main_arg4) (((cfg2.win 2).blk t).view.emb j)
  refine block2 (V c main_v44) (V c main_arg4) (iblk2 V c 0 t) (iblk2 V c 1 t) j (((cfg2.win 2).blk t).view.emb j)
    (fun r => ?_) (fun r => ?_)
  · show V c main_v44 (((cfg2.win 0).blk t).view.emb (ix2 (j 0) r))
      = V c main_v44 (ix2 ((((cfg2.win 2).blk t).view.emb j) 0) r)
    refine congrArg (V c main_v44) (funext fun a => Fin.ext ?_)
    match a with
    | ⟨0, _⟩ =>
      show win2_0.index t (0 : Fin 2) * 10000 + 1 * (j 0).val = win2_2.index t (0 : Fin 2) * 10000 + 1 * (j 0).val
      rw [e0]
    | ⟨1, _⟩ =>
      show win2_0.index t (1 : Fin 2) * 64 + 1 * r.val = r.val
      rw [e1]; omega
  · show V c main_arg4 (((cfg2.win 1).blk t).view.emb (ix2 r (j 1)))
      = V c main_arg4 (ix2 r ((((cfg2.win 2).blk t).view.emb j) 1))
    refine congrArg (V c main_arg4) (funext fun a => Fin.ext ?_)
    match a with
    | ⟨0, _⟩ =>
      show win2_1.index t (0 : Fin 2) * 64 + 1 * r.val = r.val
      rw [e2]; omega
    | ⟨1, _⟩ =>
      show win2_1.index t (1 : Fin 2) * 40 + 1 * (j 1).val = win2_2.index t (1 : Fin 2) * 40 + 1 * (j 1).val
      rw [e3, e4]

/-- An index of the output array is in point t's block iff each coordinate is in the block's range on its axis. -/
theorem mem_blk2 (t : Fin cfg2.N) (i : S100000x40.Idx) :
    i ∈ ((cfg2.win 2).blk t).view.set ↔ ∀ a : Fin 2, win2_2.index t a * S10000x40.size a ≤ (i a).val
      ∧ (i a).val < win2_2.index t a * S10000x40.size a + S10000x40.size a := by
  show i ∈ ((View.whole main_v45).slice (win2_2.rect t)).set ↔ _
  rw [View.set_slice_whole, Rect.mem_set_unit]
  exact Iff.rfl

/-- The ten blocks cover the output array: row r is in block r / 10000. -/
theorem cover2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 40 ≤ (i 1).val ∧ (i 1).val < win2_2.index t (1 : Fin 2) * 40 + 40
    omega

/-- The output array of launch 2 after its ten points. -/
theorem arr2 (c : Dev nD) :
    (dat2 (F := Ideal) V c).arrAt 2 cfg2.N = lin (V c main_v44) (V c main_arg4) :=
  (dat2 V c).arrAt_eq_of_cover 2 _ (fun t _ => flushed2 V c t) cover2

/-! ## Launch 3 -/

/-- The index maps of launch 3, decided over its ten points: the row-block index of the input and of the output is the
    same, every other block index is zero. -/
theorem idx3 : ∀ t : Fin cfg3.N, win3_0.index t (0 : Fin 2) = win3_2.index t (0 : Fin 2)
    ∧ win3_0.index t (1 : Fin 2) = 0 ∧ win3_1.index t (0 : Fin 1) = 0
    ∧ win3_2.index t (1 : Fin 2) = 0 :=
  (by decide +kernel : ∀ t : Fin grid3.N, _)

/-- Every one of the ten row blocks is some point's. -/
theorem onto3 : ∀ q : Fin 10, ∃ t : Fin cfg3.N, win3_2.index t = ![q.val, 0] :=
  (by decide +kernel : ∀ q : Fin 10, ∃ t : Fin grid3.N, win3_2.index t = ![q.val, 0])

/-- A block of rows of the biased log-softmax: if row (y 0) of the block is row (i 0) of A, the column is the same and the
    small operand is b, the body's entry y is the entry i of the whole-array function. -/
theorem block3 (A : Mat 100000 40) (b : Row 40) (x0 : Vec Ideal S10000x40 .f32) (x1 : Vec Ideal S40 .f32)
    (y : S10000x40.Idx) (i : S100000x40.Idx)
    (h0 : ∀ k : Fin 40, x0 (ix2 (y 0) k) = A (ix2 (i 0) k)) (hq : (y 1).val = (i 1).val)
    (h1 : ∀ k : Fin 40, x1 (ix1 k) = b (ix1 k)) :
    k3_pay1 (F := Ideal) x0 x1 y = biasLsm A b i := by
  obtain ⟨p, q, rfl⟩ : ∃ (p : Fin 10000) (q : Fin 40), y = ix2 p q := ⟨y 0, y 1, eq_ix2 y⟩
  obtain ⟨r, s, rfl⟩ : ∃ (r : Fin 100000) (s : Fin 40), i = ix2 r s := ⟨i 0, i 1, eq_ix2 i⟩
  have h0' : ∀ k : Fin 40, x0 (ix2 p k) = A (ix2 r k) := h0
  have hq' : q = s := Fin.ext hq
  subst hq'
  rw [pay3_apply, biasLsm_apply]
  unfold rowShift
  simp only [h0', h1]

/-- What point t of launch 3 writes back is the function of the entry arrays read through the point's block. -/
theorem flushed3 (c : Dev nD) (t : Fin cfg3.N) :
    (dat3 (F := Ideal) V c).flushed 2 t
      = ((cfg3.win 2).blk t).view.read (Elt Ideal) (biasLsm (V c main_v58) (V c main_arg5)) := by
  show (cfg3.win 2).cut (grid3.coords t) ((dat3 V c).after 2 t) = _
  rw [after3_2]
  unfold out3_2
  rw [View.canon_unit_zero zeros2]
  simp only [View.ld_unit_zero (S := S10000x40) zeros2, View.ld_unit_zero (S := S40) zeros1]
  obtain ⟨e0, e1, e2, e4⟩ := idx3 t
  funext j
  show k3_pay1 (F := Ideal) (iblk3 V c 0 t) (iblk3 V c 1 t) j
    = biasLsm (V c main_v58) (V c main_arg5) (((cfg3.win 2).blk t).view.emb j)
  refine block3 (V c main_v58) (V c main_arg5) (iblk3 V c 0 t) (iblk3 V c 1 t) j (((cfg3.win 2).blk t).view.emb j)
    (fun k => ?_) ?_ (fun k => ?_)
  · show V c main_v58 (((cfg3.win 0).blk t).view.emb (ix2 (j 0) k))
      = V c main_v58 (ix2 ((((cfg3.win 2).blk t).view.emb j) 0) k)
    refine congrArg (V c main_v58) (funext fun a => Fin.ext ?_)
    match a with
    | ⟨0, _⟩ =>
      show win3_0.index t (0 : Fin 2) * 10000 + 1 * (j 0).val = win3_2.index t (0 : Fin 2) * 10000 + 1 * (j 0).val
      rw [e0]
    | ⟨1, _⟩ =>
      show win3_0.index t (1 : Fin 2) * 40 + 1 * k.val = k.val
      rw [e1]; omega
  · show (j 1).val = win3_2.index t (1 : Fin 2) * 40 + 1 * (j 1).val
    rw [e4]; omega
  · show V c main_arg5 (((cfg3.win 1).blk t).view.emb (ix1 k)) = V c main_arg5 (ix1 k)
    refine congrArg (V c main_arg5) (funext fun a => Fin.ext ?_)
    match a with
    | ⟨0, _⟩ =>
      show win3_1.index t (0 : Fin 1) * 40 + 1 * k.val = k.val
      rw [e2]; omega

/-- An index of the output array is in point t's block iff each coordinate is in the block's range on its axis. -/
theorem mem_blk3 (t : Fin cfg3.N) (i : S100000x40.Idx) :
    i ∈ ((cfg3.win 2).blk t).view.set ↔ ∀ a : Fin 2, win3_2.index t a * S10000x40.size a ≤ (i a).val
      ∧ (i a).val < win3_2.index t a * S10000x40.size a + S10000x40.size a := by
  show i ∈ ((View.whole main_v59).slice (win3_2.rect t)).set ↔ _
  rw [View.set_slice_whole, Rect.mem_set_unit]
  exact Iff.rfl

/-- The ten blocks cover the output array: row r is in block r / 10000. -/
theorem cover3 (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 40 ≤ (i 1).val ∧ (i 1).val < win3_2.index t (1 : Fin 2) * 40 + 40
    omega

/-- The output array of launch 3 after its ten points. -/
theorem arr3 (c : Dev nD) :
    (dat3 (F := Ideal) V c).arrAt 2 cfg3.N = biasLsm (V c main_v58) (V c main_arg5) :=
  (dat3 V c).arrAt_eq_of_cover 2 _ (fun t _ => flushed3 V c t) cover3

end Cert.Gcn

end
-- ==== Proof.Glue.lean ====
/-
  The part of the graph convolution that runs on the host, as functions of the edge list: the source and target
  index vectors with the self loops appended, the in-degree of every node, its inverse square root (zero where the
  degree is not positive), the per-edge weight dinv[source] * dinv[target], and the aggregation that gathers the
  rows of a node array at the sources, scales each by its edge's weight and adds it into the row of its target.
  These are the host operations of the program, composed; nothing here opens a gather or a scatter.
-/
import proofs.«112788_j34746285424664_1_alg».proof.KernelIdeal
import proofs.«112788_j34746285424664_1_alg».proof.Proof.Gen.KernelIdeal

noncomputable section

namespace Cert.Gcn

open Idealize.ShloMosaic Cert.KernelIdeal
open Cert.KernelIdeal.Facts₀ Cert.KernelIdeal.Facts

variable {F : FTy → Type} [FloatOps F]

/-- The edge list: two rows of 1600000 node numbers. -/
abbrev EdgeList (F : FTy → Type) : Type := (⟨S2x1600000, .i32⟩ : BufTy).Contents (Elt F)
/-- One node number per message (1600000 edges and 100000 self loops). -/
abbrev MsgIdx (F : FTy → Type) : Type := (⟨S1700000, .i32⟩ : BufTy).Contents (Elt F)
/-- One number per message. -/
abbrev MsgVec (F : FTy → Type) : Type := (⟨S1700000, .f32⟩ : BufTy).Contents (Elt F)
/-- One number per node. -/
abbrev NodeVec (F : FTy → Type) : Type := (⟨S100000, .f32⟩ : BufTy).Contents (Elt F)

/-- The sources: row 0 of the edge list, then every node once (its self loop). -/
def sources (e : EdgeList F) : MsgIdx F :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The targets: row 1 of the edge list, then every node once. -/
def targets (e : EdgeList F) : MsgIdx F :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A node number counted from the end (negative) is counted from the start: v + 100000 where v < 0. -/
def wrapped (v : MsgIdx F) : MsgIdx F :=
  select (cmpi .slt v (broadcastInDim S1700000 ![] bcast_S_S1700000 (constantI S_ 32 0#32)))
    (addi v (broadcastInDim S1700000 ![] bcast_S_S1700000 (constantI S_ 32 100000#32))) v

/-- The in-degree of every node: one added at its target per message. -/
def degree (tgt : MsgIdx F) : NodeVec F :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 tgt)
    (broadcastInDim S1700000 ![] bcast_S_S1700000 (constant (F := F) S_ .f32 0x3F800000#32))

/-- The inverse square root of the degree where it is positive, zero elsewhere. -/
def invSqrtDegree (tgt : MsgIdx F) : NodeVec F :=
  select (cmpf (F := F) .ogt (degree tgt) (broadcastInDim S100000 ![] bcast_S_S100000 (constant (F := F) S_ .f32 0x00000000#32)))
    (Host.rsqrt (degree tgt))
    (broadcastInDim S100000 ![] bcast_S_S100000 (id (constant (F := F) S_ .f32 0x00000000#32)))

/-- The weight of every message: dinv at its source times dinv at its target. -/
def edgeWeight (src tgt : MsgIdx F) (dinv : NodeVec F) : MsgVec F :=
  mulf (Host.gather gather_S100000_S1700000x1_S1700000_n_0_n_n_0_1_1 dinv
      (broadcastInDim S1700000x1 ![0] bcast_S1700000_S1700000x1_0 (wrapped src)))
    (Host.gather gather_S100000_S1700000x1_S1700000_n_0_n_n_0_1_1 dinv
      (broadcastInDim S1700000x1 ![0] bcast_S1700000_S1700000x1_0 (wrapped tgt)))

/-- The aggregation of a [100000, 64] node array: rows gathered at the sources, scaled by the weights, added at the targets. -/
def aggregate64 (src tgt : MsgIdx F) (w : MsgVec F) (h : (⟨S100000x64, .f32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 tgt)
    (mulf (Host.gather gather_S100000x64_S1700000x1_S1700000x64_1_0_n_n_0_1_164 h
        (broadcastInDim S1700000x1 ![0] bcast_S1700000_S1700000x1_0 (wrapped src)))
      (broadcastInDim S1700000x64 ![0, 1] bcast_S1700000x1_S1700000x64_0_1
        (broadcastInDim S1700000x1 ![0] bcast_S1700000_S1700000x1_0 w)))

/-- The aggregation of a [100000, 40] node array. -/
def aggregate40 (src tgt : MsgIdx F) (w : MsgVec F) (h : (⟨S100000x40, .f32⟩ : BufTy).Contents (Elt F)) :
    (⟨S100000x40, .f32⟩ : BufTy).Contents (Elt F) :=
  Host.scatterAdd scatter_S100000x40_S1700000x1_S1700000x40_1_0_0_1
    (broadcastInDim S100000x40 ![] bcast_S_S100000x40 (constant (F := F) S_ .f32 0x00000000#32))
    (broadcastInDim S1700000x1 ![0] bcast_S1700000_S1700000x1_0 tgt)
    (mulf (Host.gather gather_S100000x40_S1700000x1_S1700000x40_1_0_n_n_0_1_140 h
        (broadcastInDim S1700000x1 ![0] bcast_S1700000_S1700000x1_0 (wrapped src)))
      (broadcastInDim S1700000x40 ![0, 1] bcast_S1700000x1_S1700000x40_0_1
        (broadcastInDim S1700000x1 ![0] bcast_S1700000_S1700000x1_0 w)))

end Cert.Gcn

end
-- ==== Proof.GcnFun.lean ====
/-
  The whole network as ONE function of the six argument arrays, on the extended reals: the product with the first
  weights, the aggregation over the graph, the bias and the maximum with zero, the product with the second weights,
  the aggregation again, the bias and the row-wise log-softmax. Both programs are shown to compute it.
-/
import proofs.«112788_j34746285424664_1_alg».proof.Proof.GcnSpec
import proofs.«112788_j34746285424664_1_alg».proof.Proof.Glue

noncomputable section

namespace Cert.Gcn

open Idealize.ShloMosaic Cert.KernelIdeal

/-- The two-layer graph convolution network of the arguments x, the edge list e, W1, b1, W2, b2. -/
def network (x : Mat 100000 128) (e : EdgeList Ideal) (w1 : Mat 128 64) (b1 : Row 64) (w2 : Mat 64 40) (b2 : Row 40) :
    Mat 100000 40 :=
  biasLsm
    (aggregate40 (F := Ideal) (sources e) (targets e) (edgeWeight (sources e) (targets e) (invSqrtDegree (targets e)))
      (lin (biasRelu
        (aggregate64 (F := Ideal) (sources e) (targets e) (edgeWeight (sources e) (targets e) (invSqrtDegree (targets e)))
          (lin x w1)) b1) w2)) b2

end Cert.Gcn

end
-- ==== Proof.KernelValue.lean ====
/-
  The idealized kernel program, boundary by boundary: what the buffers the later steps read hold after each stretch
  of host operations and after each launch, as functions of the six argument arrays; and the program's run with its
  result buffer named.
-/
import proofs.«112788_j34746285424664_1_alg».proof.Proof.Gen.KernelIdeal.Frame
import proofs.«112788_j34746285424664_1_alg».proof.Proof.KernelRegions
import proofs.«112788_j34746285424664_1_alg».proof.Proof.GcnFun

set_option maxRecDepth 16384

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Two arrays joined along an axis, with the two pieces as plain arguments instead of a list of shape-and-array pairs. -/
def joined2 {α : Type} (t : Shape) (ax : Fin t.rank) (s1 s2 : Shape) (a : s1.Idx → α) (b : s2.Idx → α)
    (h : Shape.Concatenates [s1, s2] t ax) : t.Idx → α :=
  concatenate t ax [⟨s1, a⟩, ⟨s2, b⟩] h
theorem joined2_def {α : Type} (t : Shape) (ax : Fin t.rank) (s1 s2 : Shape) (a : s1.Idx → α) (b : s2.Idx → α)
    (h : Shape.Concatenates [s1, s2] t ax) : concatenate t ax [⟨s1, a⟩, ⟨s2, b⟩] h = joined2 t ax s1 s2 a b h := rfl

open Idealize.ShloMosaic.StableHlo in
/-- Each operation's result at its own buffer is its function's value, at any other buffer what was there; a two-piece
    concatenation is read with its pieces as plain arguments. -/
local macro "read_results" : tactic =>
  `(tactic| (simp (disch := decide) only [StableHlo.after_cons, StableHlo.after_nil, joined2_def,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne']))

/-! ## Before the first launch: the three stretches of host operations -/

theorem w3_src (c : Dev nD) : W3 m ρ c (Proc.devRef .tc main_v3) = sources (F := Ideal) (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  read_results <;> exact rfl

theorem w3_tgt (c : Dev nD) : W3 m ρ c (Proc.devRef .tc main_v6) = targets (F := Ideal) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  read_results <;> exact rfl

/-- After the first stretch: the comparison "degree > 0" of every node, -/
theorem w1_pos (c : Dev nD) : W1 m ρ c (Proc.devRef .tc main_v12)
    = (cmpf (F := Ideal) .ogt (degree (targets (m ((c : Thread nD τ).loc main_arg1))))
        (broadcastInDim S100000 ![] Gen.bcast_S_S100000 (constant (F := Ideal) S_ .f32 0x00000000#32))
        : (⟨S100000, .i1⟩ : BufTy).Contents (Elt Ideal)) := by
  show StableHlo.after hostOps0 (W0 m ρ c) (Proc.devRef .tc main_v12) = _
  simp only [hostOps0]
  read_results <;> exact rfl
/-- the inverse square root of every degree, -/
theorem w1_rsqrt (c : Dev nD) : W1 m ρ c (Proc.devRef .tc main_v13)
    = Host.rsqrt (F := Ideal) (φ := .f32) (degree (F := Ideal) (targets (m ((c : Thread nD τ).loc main_arg1)))) := by
  show StableHlo.after hostOps0 (W0 m ρ c) (Proc.devRef .tc main_v13) = _
  simp only [hostOps0]
  read_results <;> exact rfl
/-- the zero that stands where the degree is not positive, -/
theorem w1_zero (c : Dev nD) : W1 m ρ c (Proc.devRef .tc main_cst_2)
    = (constant (F := Ideal) S_ .f32 0x00000000#32 : (⟨S_, .f32⟩ : BufTy).Contents (Elt Ideal)) := by
  show StableHlo.after hostOps0 (W0 m ρ c) (Proc.devRef .tc main_cst_2) = _
  simp only [hostOps0]
  read_results <;> exact rfl
/-- and the two index vectors. -/
theorem w1_src (c : Dev nD) : W1 m ρ c (Proc.devRef .tc main_v3) = sources (F := Ideal) (m ((c : Thread nD τ).loc main_arg1)) := by
  show StableHlo.after hostOps0 (W0 m ρ c) (Proc.devRef .tc main_v3) = _
  simp only [hostOps0]
  read_results <;> exact rfl
theorem w1_tgt (c : Dev nD) : W1 m ρ c (Proc.devRef .tc main_v6) = targets (F := Ideal) (m ((c : Thread nD τ).loc main_arg1)) := by
  show StableHlo.after hostOps0 (W0 m ρ c) (Proc.devRef .tc main_v6) = _
  simp only [hostOps0]
  read_results <;> exact rfl

/-- After the selection: the inverse square root of the degree where it is positive, zero elsewhere. -/
theorem w2_dinv (c : Dev nD) : W2 m ρ c (Proc.devRef .tc main_v14) = invSqrtDegree (F := Ideal) (targets (m ((c : Thread nD τ).loc main_arg1))) := by
  have h12 := w1_pos m ρ c
  have h13 := w1_rsqrt m ρ c
  have hz := w1_zero m ρ c
  show StableHlo.after hostOps0_1 (W1 m ρ c) (Proc.devRef .tc main_v14) = _
  generalize W1 m ρ c = V1 at h12 h13 hz ⊢
  simp only [hostOps0_1]
  read_results
  show (select (V1 (Proc.devRef .tc main_v12)) (V1 (Proc.devRef .tc main_v13))
    (broadcastInDim S100000 ![] Gen.bcast_S_S100000 (id (V1 (Proc.devRef .tc main_cst_2)))) : NodeVec Ideal) = _
  rw [h12, h13, hz]
  exact rfl
theorem w2_src (c : Dev nD) : W2 m ρ c (Proc.devRef .tc main_v3) = sources (F := Ideal) (m ((c : Thread nD τ).loc main_arg1)) := by
  refine Eq.trans ?_ (w1_src m ρ c)
  show StableHlo.after hostOps0_1 (W1 m ρ c) (Proc.devRef .tc main_v3) = _
  generalize W1 m ρ c = V1
  simp only [hostOps0_1]
  read_results
theorem w2_tgt (c : Dev nD) : W2 m ρ c (Proc.devRef .tc main_v6) = targets (F := Ideal) (m ((c : Thread nD τ).loc main_arg1)) := by
  refine Eq.trans ?_ (w1_tgt m ρ c)
  show StableHlo.after hostOps0_1 (W1 m ρ c) (Proc.devRef .tc main_v6) = _
  generalize W1 m ρ c = V1
  simp only [hostOps0_1]
  read_results

/-- After the third stretch: the weight of every message. -/
theorem w3_wgt (c : Dev nD) : W3 m ρ c (Proc.devRef .tc main_v29)
    = edgeWeight (F := Ideal) (sources (m ((c : Thread nD τ).loc main_arg1))) (targets (m ((c : Thread nD τ).loc main_arg1))) (invSqrtDegree (targets (m ((c : Thread nD τ).loc main_arg1)))) := by
  have hs := w2_src m ρ c
  have ht := w2_tgt m ρ c
  have hd := w2_dinv m ρ c
  show StableHlo.after hostOps0_2 (W2 m ρ c) (Proc.devRef .tc main_v29) = _
  generalize W2 m ρ c = V2 at hs ht hd ⊢
  simp only [hostOps0_2]
  read_results
  rw [hs, ht, hd]
  exact rfl

theorem w3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  read_results <;> exact rfl

theorem w3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  read_results <;> exact rfl

theorem w3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  read_results <;> exact rfl

theorem w3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  read_results <;> exact rfl

theorem w3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  read_results <;> exact rfl

/-! ## After the first launch: the product with the first weights -/

theorem w4_h0 (c : Dev nD) : W4 m ρ c (Proc.devRef .tc main_v30) = lin (m ((c : Thread nD τ).loc main_arg0)) (m ((c : Thread nD τ).loc main_arg2)) := by
  refine (W4_arr m ρ c 2).trans ?_
  rw [arr0 (V3 m ρ) c]
  show lin (W3 m ρ c (Proc.devRef .tc main_arg0)) (W3 m ρ c (Proc.devRef .tc main_arg2)) = _
  rw [w3_arg0, w3_arg2]
theorem w4_src (c : Dev nD) : W4 m ρ c (Proc.devRef .tc main_v3) = sources (F := Ideal) (m ((c : Thread nD τ).loc main_arg1)) :=
  (W4_of_ne m ρ c main_v3 (by decide)).trans (w3_src m ρ c)
theorem w4_tgt (c : Dev nD) : W4 m ρ c (Proc.devRef .tc main_v6) = targets (F := Ideal) (m ((c : Thread nD τ).loc main_arg1)) :=
  (W4_of_ne m ρ c main_v6 (by decide)).trans (w3_tgt m ρ c)
theorem w4_wgt (c : Dev nD) : W4 m ρ c (Proc.devRef .tc main_v29) = edgeWeight (F := Ideal) (sources (m ((c : Thread nD τ).loc main_arg1))) (targets (m ((c : Thread nD τ).loc main_arg1))) (invSqrtDegree (targets (m ((c : Thread nD τ).loc main_arg1)))) :=
  (W4_of_ne m ρ c main_v29 (by decide)).trans (w3_wgt m ρ c)
theorem w4_arg3 (c : Dev nD) : W4 m ρ c (Proc.devRef .tc main_arg3) = m ((c : Thread nD τ).loc main_arg3) :=
  (W4_of_ne m ρ c main_arg3 (by decide)).trans (w3_arg3 m ρ c)
theorem w4_arg4 (c : Dev nD) : W4 m ρ c (Proc.devRef .tc main_arg4) = m ((c : Thread nD τ).loc main_arg4) :=
  (W4_of_ne m ρ c main_arg4 (by decide)).trans (w3_arg4 m ρ c)
theorem w4_arg5 (c : Dev nD) : W4 m ρ c (Proc.devRef .tc main_arg5) = m ((c : Thread nD τ).loc main_arg5) :=
  (W4_of_ne m ρ c main_arg5 (by decide)).trans (w3_arg5 m ρ c)

/-! ## After the next stretch: the first aggregation -/

theorem w5_a1 (c : Dev nD) : W5 m ρ c (Proc.devRef .tc main_v43) = aggregate64 (F := Ideal) (sources (m ((c : Thread nD τ).loc main_arg1))) (targets (m ((c : Thread nD τ).loc main_arg1))) (edgeWeight (sources (m ((c : Thread nD τ).loc main_arg1))) (targets (m ((c : Thread nD τ).loc main_arg1))) (invSqrtDegree (targets (m ((c : Thread nD τ).loc main_arg1))))) (lin (m ((c : Thread nD τ).loc main_arg0)) (m ((c : Thread nD τ).loc main_arg2))) := by
  show StableHlo.after hostOps1 (W4 m ρ c) (Proc.devRef .tc main_v43) = _
  simp only [hostOps1]
  read_results
  rw [w4_h0, w4_src, w4_tgt, w4_wgt]
  exact rfl
theorem w5_src (c : Dev nD) : W5 m ρ c (Proc.devRef .tc main_v3) = sources (F := Ideal) (m ((c : Thread nD τ).loc main_arg1)) := by
  refine Eq.trans ?_ (w4_src m ρ c)
  show StableHlo.after hostOps1 (W4 m ρ c) (Proc.devRef .tc main_v3) = _
  simp only [hostOps1]
  read_results <;> exact rfl
theorem w5_tgt (c : Dev nD) : W5 m ρ c (Proc.devRef .tc main_v6) = targets (F := Ideal) (m ((c : Thread nD τ).loc main_arg1)) := by
  refine Eq.trans ?_ (w4_tgt m ρ c)
  show StableHlo.after hostOps1 (W4 m ρ c) (Proc.devRef .tc main_v6) = _
  simp only [hostOps1]
  read_results <;> exact rfl
theorem w5_wgt (c : Dev nD) : W5 m ρ c (Proc.devRef .tc main_v29) = edgeWeight (F := Ideal) (sources (m ((c : Thread nD τ).loc main_arg1))) (targets (m ((c : Thread nD τ).loc main_arg1))) (invSqrtDegree (targets (m ((c : Thread nD τ).loc main_arg1)))) := by
  refine Eq.trans ?_ (w4_wgt m ρ c)
  show StableHlo.after hostOps1 (W4 m ρ c) (Proc.devRef .tc main_v29) = _
  simp only [hostOps1]
  read_results <;> exact rfl
theorem w5_arg3 (c : Dev nD) : W5 m ρ c (Proc.devRef .tc main_arg3) = m ((c : Thread nD τ).loc main_arg3) := by
  refine Eq.trans ?_ (w4_arg3 m ρ c)
  show StableHlo.after hostOps1 (W4 m ρ c) (Proc.devRef .tc main_arg3) = _
  simp only [hostOps1]
  read_results <;> exact rfl
theorem w5_arg4 (c : Dev nD) : W5 m ρ c (Proc.devRef .tc main_arg4) = m ((c : Thread nD τ).loc main_arg4) := by
  refine Eq.trans ?_ (w4_arg4 m ρ c)
  show StableHlo.after hostOps1 (W4 m ρ c) (Proc.devRef .tc main_arg4) = _
  simp only [hostOps1]
  read_results <;> exact rfl
theorem w5_arg5 (c : Dev nD) : W5 m ρ c (Proc.devRef .tc main_arg5) = m ((c : Thread nD τ).loc main_arg5) := by
  refine Eq.trans ?_ (w4_arg5 m ρ c)
  show StableHlo.after hostOps1 (W4 m ρ c) (Proc.devRef .tc main_arg5) = _
  simp only [hostOps1]
  read_results <;> exact rfl

/-! ## After the second launch: the bias and the maximum with zero -/

theorem w6_h1 (c : Dev nD) : W6 m ρ c (Proc.devRef .tc main_v44) = biasRelu (aggregate64 (F := Ideal) (sources (m ((c : Thread nD τ).loc main_arg1))) (targets (m ((c : Thread nD τ).loc main_arg1))) (edgeWeight (sources (m ((c : Thread nD τ).loc main_arg1))) (targets (m ((c : Thread nD τ).loc main_arg1))) (invSqrtDegree (targets (m ((c : Thread nD τ).loc main_arg1))))) (lin (m ((c : Thread nD τ).loc main_arg0)) (m ((c : Thread nD τ).loc main_arg2)))) (m ((c : Thread nD τ).loc main_arg3)) := by
  refine (W6_arr m ρ c 2).trans ?_
  rw [arr1 (V5 m ρ) c]
  show biasRelu (W5 m ρ c (Proc.devRef .tc main_v43)) (W5 m ρ c (Proc.devRef .tc main_arg3)) = _
  rw [w5_a1, w5_arg3]
theorem w6_src (c : Dev nD) : W6 m ρ c (Proc.devRef .tc main_v3) = sources (F := Ideal) (m ((c : Thread nD τ).loc main_arg1)) :=
  (W6_of_ne m ρ c main_v3 (by decide)).trans (w5_src m ρ c)
theorem w6_tgt (c : Dev nD) : W6 m ρ c (Proc.devRef .tc main_v6) = targets (F := Ideal) (m ((c : Thread nD τ).loc main_arg1)) :=
  (W6_of_ne m ρ c main_v6 (by decide)).trans (w5_tgt m ρ c)
theorem w6_wgt (c : Dev nD) : W6 m ρ c (Proc.devRef .tc main_v29) = edgeWeight (F := Ideal) (sources (m ((c : Thread nD τ).loc main_arg1))) (targets (m ((c : Thread nD τ).loc main_arg1))) (invSqrtDegree (targets (m ((c : Thread nD τ).loc main_arg1)))) :=
  (W6_of_ne m ρ c main_v29 (by decide)).trans (w5_wgt m ρ c)
theorem w6_arg4 (c : Dev nD) : W6 m ρ c (Proc.devRef .tc main_arg4) = m ((c : Thread nD τ).loc main_arg4) :=
  (W6_of_ne m ρ c main_arg4 (by decide)).trans (w5_arg4 m ρ c)
theorem w6_arg5 (c : Dev nD) : W6 m ρ c (Proc.devRef .tc main_arg5) = m ((c : Thread nD τ).loc main_arg5) :=
  (W6_of_ne m ρ c main_arg5 (by decide)).trans (w5_arg5 m ρ c)

/-! ## After the third launch: the product with the second weights -/

theorem w7_h2 (c : Dev nD) : W7 m ρ c (Proc.devRef .tc main_v45) = lin (biasRelu (aggregate64 (F := Ideal) (sources (m ((c : Thread nD τ).loc main_arg1))) (targets (m ((c : Thread nD τ).loc main_arg1))) (edgeWeight (sources (m ((c : Thread nD τ).loc main_arg1))) (targets (m ((c : Thread nD τ).loc main_arg1))) (invSqrtDegree (targets (m ((c : Thread nD τ).loc main_arg1))))) (lin (m ((c : Thread nD τ).loc main_arg0)) (m ((c : Thread nD τ).loc main_arg2)))) (m ((c : Thread nD τ).loc main_arg3))) (m ((c : Thread nD τ).loc main_arg4)) := by
  refine (W7_arr m ρ c 2).trans ?_
  rw [arr2 (V6 m ρ) c]
  show lin (W6 m ρ c (Proc.devRef .tc main_v44)) (W6 m ρ c (Proc.devRef .tc main_arg4)) = _
  rw [w6_h1, w6_arg4]
theorem w7_src (c : Dev nD) : W7 m ρ c (Proc.devRef .tc main_v3) = sources (F := Ideal) (m ((c : Thread nD τ).loc main_arg1)) :=
  (W7_of_ne m ρ c main_v3 (by decide)).trans (w6_src m ρ c)
theorem w7_tgt (c : Dev nD) : W7 m ρ c (Proc.devRef .tc main_v6) = targets (F := Ideal) (m ((c : Thread nD τ).loc main_arg1)) :=
  (W7_of_ne m ρ c main_v6 (by decide)).trans (w6_tgt m ρ c)
theorem w7_wgt (c : Dev nD) : W7 m ρ c (Proc.devRef .tc main_v29) = edgeWeight (F := Ideal) (sources (m ((c : Thread nD τ).loc main_arg1))) (targets (m ((c : Thread nD τ).loc main_arg1))) (invSqrtDegree (targets (m ((c : Thread nD τ).loc main_arg1)))) :=
  (W7_of_ne m ρ c main_v29 (by decide)).trans (w6_wgt m ρ c)
theorem w7_arg5 (c : Dev nD) : W7 m ρ c (Proc.devRef .tc main_arg5) = m ((c : Thread nD τ).loc main_arg5) :=
  (W7_of_ne m ρ c main_arg5 (by decide)).trans (w6_arg5 m ρ c)

/-! ## After the last stretch: the second aggregation -/

theorem w8_a2 (c : Dev nD) : W8 m ρ c (Proc.devRef .tc main_v58) = aggregate40 (F := Ideal) (sources (m ((c : Thread nD τ).loc main_arg1))) (targets (m ((c : Thread nD τ).loc main_arg1))) (edgeWeight (sources (m ((c : Thread nD τ).loc main_arg1))) (targets (m ((c : Thread nD τ).loc main_arg1))) (invSqrtDegree (targets (m ((c : Thread nD τ).loc main_arg1))))) (lin (biasRelu (aggregate64 (F := Ideal) (sources (m ((c : Thread nD τ).loc main_arg1))) (targets (m ((c : Thread nD τ).loc main_arg1))) (edgeWeight (sources (m ((c : Thread nD τ).loc main_arg1))) (targets (m ((c : Thread nD τ).loc main_arg1))) (invSqrtDegree (targets (m ((c : Thread nD τ).loc main_arg1))))) (lin (m ((c : Thread nD τ).loc main_arg0)) (m ((c : Thread nD τ).loc main_arg2)))) (m ((c : Thread nD τ).loc main_arg3))) (m ((c : Thread nD τ).loc main_arg4))) := by
  show StableHlo.after hostOps3 (W7 m ρ c) (Proc.devRef .tc main_v58) = _
  simp only [hostOps3]
  read_results
  rw [w7_h2, w7_src, w7_tgt, w7_wgt]
  exact rfl
theorem w8_arg5 (c : Dev nD) : W8 m ρ c (Proc.devRef .tc main_arg5) = m ((c : Thread nD τ).loc main_arg5) := by
  refine Eq.trans ?_ (w7_arg5 m ρ c)
  show StableHlo.after hostOps3 (W7 m ρ c) (Proc.devRef .tc main_arg5) = _
  simp only [hostOps3]
  read_results <;> exact rfl

/-! ## After the fourth launch: the result -/

/-- The result buffer at the return holds the network of the six argument arrays. -/
theorem w9_out (c : Dev nD) : W9 m ρ c (Proc.devRef .tc main_v59)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  rw [arr3 (V8 m ρ) c]
  show biasLsm (W8 m ρ c (Proc.devRef .tc main_v58)) (W8 m ρ c (Proc.devRef .tc main_arg5)) = _
  rw [w8_a2, w8_arg5]
  exact rfl

/-! ## The run, with the result buffer named -/

-- the launch theorem's implicit arguments are found by unifying its conclusion with this one, which takes unfolding
-- plain definitions in a metavariable's type
set_option backward.isDefEq.respectTransparency.types false in
/-- Every weakly fair execution of the idealized kernel program terminates, nothing faulting, with the result buffer at
    the last boundary's contents and the argument arrays as launched: the launch over the program's nine segments, the
    last thread state read against the final state. -/
theorem run_named : θ_run defs (onTc (τ := τ) (main (F := Ideal))) ⟨m, fun _ => 0, ρ⟩ (fun r => ∀ c : Dev nD,
      r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

/-- The same run with the result read: it holds the network of the argument arrays. -/
theorem run : θ_run defs (onTc (τ := τ) (main (F := Ideal))) ⟨m, fun _ => 0, ρ⟩ (fun r => ∀ c : Dev nD,
      r.2.mem ((c.tc : Thread nD τ).loc main_v59)
        = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (w9_out m ρ c), (h c).2⟩) (run_named m ρ)

end Cert.Gcn

end
-- ==== Proof.RefValue.lean ====
/-
  The idealized reference program computes the same network: its two matrix products are the sums, its host glue
  is the same composition of host operations (it prepares the edge weights twice, both times the same function of the
  edge list), its bias-and-maximum and its log-softmax are the row-local functions, each read index by index.
-/
import proofs.«112788_j34746285424664_1_alg».proof.Proof.RefReadPatched
import proofs.«112788_j34746285424664_1_alg».proof.Proof.GcnFun
import Idealize.ShloMosaic.PureOps.Reduce

set_option maxRecDepth 16384

noncomputable section

open scoped BigOperators

namespace Cert.Gcn.Ref

open Idealize.ShloMosaic Idealize.ShloMosaic.ValueIdx Cert.ReferenceIdeal Cert.ReferenceIdeal.Gen Cert.ReferenceIdeal.ReadP Cert.Gcn

variable (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x40, .f32⟩ : BufTy).Contents (Elt Ideal)) (x5 : (⟨S40, .f32⟩ : BufTy).Contents (Elt Ideal))

/-! ## The two products -/

/-- The first product is the sum over the 128 input features. -/
theorem product1 : val_main_v0 (F := Ideal) x0 x2 = lin x0 x2 := by
  funext i
  rw [val_main_v0_apply]
  show _ = ∑ k : Fin 128, x0 (ix2 (i 0) k) * x2 (ix2 k (i 1))
  refine Finset.sum_congr rfl fun k _ => ?_
  have el : lidx_main_v0 i k = ix2 (i 0) k := funext fun a => Fin.ext (by
    match a with
    | ⟨0, _⟩ => rfl
    | ⟨1, _⟩ => rfl)
  have er : ridx_main_v0 i k = ix2 k (i 1) := funext fun a => Fin.ext (by
    match a with
    | ⟨0, _⟩ => rfl
    | ⟨1, _⟩ => rfl)
  exact congrArg₂ (· * ·) (congrArg x0 el) (congrArg x2 er)

/-- The second product is the sum over the 64 hidden features. -/
theorem product2 : val_main_v48 (F := Ideal) x0 x1 x2 x3 x4 = lin (val_main_v47 (F := Ideal) x0 x1 x2 x3) x4 := by
  funext i
  rw [val_main_v48_apply]
  show _ = ∑ k : Fin 64, val_main_v47 (F := Ideal) x0 x1 x2 x3 (ix2 (i 0) k) * x4 (ix2 k (i 1))
  refine Finset.sum_congr rfl fun k _ => ?_
  have el : lidx_main_v48 i k = ix2 (i 0) k := funext fun a => Fin.ext (by
    match a with
    | ⟨0, _⟩ => rfl
    | ⟨1, _⟩ => rfl)
  have er : ridx_main_v48 i k = ix2 k (i 1) := funext fun a => Fin.ext (by
    match a with
    | ⟨0, _⟩ => rfl
    | ⟨1, _⟩ => rfl)
  exact congrArg₂ (· * ·) (congrArg (val_main_v47 (F := Ideal) x0 x1 x2 x3) el) (congrArg x4 er)

/-! ## The host glue: the same operations, composed -/

theorem sources1 : val_main_v4 (F := Ideal) x1 = sources x1 := rfl
theorem targets1 : val_main_v7 (F := Ideal) x1 = targets x1 := rfl
theorem sources2 : val_main_v52 (F := Ideal) x1 = sources x1 := rfl
theorem targets2 : val_main_v55 (F := Ideal) x1 = targets x1 := rfl

theorem dinv1 : val_main_v15 (F := Ideal) x1 = invSqrtDegree (val_main_v7 (F := Ideal) x1) := rfl
theorem dinv2 : val_main_v63 (F := Ideal) x1 = invSqrtDegree (val_main_v55 (F := Ideal) x1) := rfl

theorem weight1 : val_main_v30 (F := Ideal) x1
    = edgeWeight (val_main_v4 (F := Ideal) x1) (val_main_v7 (F := Ideal) x1) (val_main_v15 (F := Ideal) x1) := rfl
theorem weight2 : val_main_v78 (F := Ideal) x1
    = edgeWeight (val_main_v52 (F := Ideal) x1) (val_main_v55 (F := Ideal) x1) (val_main_v63 (F := Ideal) x1) := rfl

theorem aggregation1 : val_main_v43 (F := Ideal) x0 x1 x2
    = aggregate64 (val_main_v4 (F := Ideal) x1) (val_main_v7 (F := Ideal) x1) (val_main_v30 (F := Ideal) x1)
        (val_main_v0 (F := Ideal) x0 x2) := rfl
theorem aggregation2 : val_main_v91 (F := Ideal) x0 x1 x2 x3 x4
    = aggregate40 (val_main_v52 (F := Ideal) x1) (val_main_v55 (F := Ideal) x1) (val_main_v78 (F := Ideal) x1)
        (val_main_v48 (F := Ideal) x0 x1 x2 x3 x4) := rfl

/-! ## The bias and the maximum with zero -/

theorem relu : val_main_v47 (F := Ideal) x0 x1 x2 x3 = biasRelu (val_main_v43 (F := Ideal) x0 x1 x2) x3 := by
  funext i
  rw [val_main_v47_apply, val_main_v46_apply, val_main_v45_apply, val_main_v44_apply, val_main_call1_v0_apply,
    val_main_call1_cst_apply]
  have e : idx_main_v44 (idx_main_v45 i) = ix1 (i 1) := funext fun a => Fin.ext (by
    match a with
    | ⟨0, _⟩ => rfl)
  rw [e]
  rfl

/-! ## The log-softmax -/

/-- The biased rows the log-softmax is taken of. -/
theorem biased (i : S100000x40.Idx) : val_main_v94 (F := Ideal) x0 x1 x2 x3 x4 x5 i
    = val_main_v91 (F := Ideal) x0 x1 x2 x3 x4 i + x5 (ix1 (i 1)) := by
  rw [val_main_v94_apply, val_main_v93_apply, val_main_v92_apply]
  have e : idx_main_v92 (idx_main_v93 i) = ix1 (i 1) := funext fun a => Fin.ext (by
    match a with
    | ⟨0, _⟩ => rfl)
  rw [e]
  rfl

/-- The host's maximum over the columns from minus infinity is the supremum of the row. -/
theorem rowMax (Z : S100000x40.Idx → EReal) (r : Fin 100000) :
    Host.reduce (FloatOps.maximumf (F := Ideal) (φ := .f32)) Z (val_main_call3_cst (F := Ideal))
      reducesTo_S100000x40_S100000_d1 h_S_ (ix1 r) = Finset.univ.sup fun k : Fin 40 => Z (ix2 r k) := by
  have h : S100000x40.Reduces [1] S100000 := by decide
  rw [Host.reduce_eq_fold_single (FloatOps.maximumf (F := Ideal) (φ := .f32)) Z _ reducesTo_S100000x40_S100000_d1 h h_S_]
  refine (congrArg (fun z => (Finset.univ : Finset (Fin (S100000x40.size 1))).fold max z (Z ∘ h.lift (ix1 r)))
    (show val_main_call3_cst (F := Ideal) (Shape.Idx.first h_S_) = (⊥ : EReal) from
      Cert.LibPayOps.ofBits_f32_neg_inf)).trans ?_
  refine (Cert.LibPayOps.fold_max_bot_eq_sup _ _).trans ?_
  exact congrArg (Finset.univ.sup) (funext fun k => congrArg Z (funext fun d => Fin.ext (by
    match d with
    | ⟨0, _⟩ => rfl
    | ⟨1, _⟩ => rfl)))

/-- The shift of row r. -/
theorem shift (r : Fin 100000) : val_main_call3_v2 (F := Ideal) x0 x1 x2 x3 x4 x5 (ix1 r)
    = rowShift (val_main_v91 (F := Ideal) x0 x1 x2 x3 x4) x5 r := by
  rw [val_main_call3_v2_apply, val_main_call3_v1_apply, val_main_call3_cst_0_apply]
  unfold val_main_call3_v0
  rw [rowMax]
  unfold rowShift
  simp only [biased]
  rfl

/-- The centred entry (r, q). -/
theorem centred (r : Fin 100000) (q : Fin 40) : val_main_call3_v5 (F := Ideal) x0 x1 x2 x3 x4 x5 (ix2 r q)
    = val_main_v91 (F := Ideal) x0 x1 x2 x3 x4 (ix2 r q) + x5 (ix1 q) - rowShift (val_main_v91 (F := Ideal) x0 x1 x2 x3 x4) x5 r := by
  have e : idx_main_call3_v3 (idx_main_call3_v4 (ix2 r q)) = ix1 r := funext fun a => Fin.ext (by
    match a with
    | ⟨0, _⟩ => rfl)
  have hs : val_main_call3_v4 (F := Ideal) x0 x1 x2 x3 x4 x5 (ix2 r q) = rowShift (val_main_v91 (F := Ideal) x0 x1 x2 x3 x4) x5 r :=
    (val_main_call3_v4_apply x0 x1 x2 x3 x4 x5 (ix2 r q)).trans
      ((val_main_call3_v3_apply x0 x1 x2 x3 x4 x5 (idx_main_call3_v4 (ix2 r q))).trans
        ((congrArg (val_main_call3_v2 (F := Ideal) x0 x1 x2 x3 x4 x5) e).trans (shift x0 x1 x2 x3 x4 x5 r)))
  refine (val_main_call3_v5_apply x0 x1 x2 x3 x4 x5 (ix2 r q)).trans ?_
  exact congrArg₂ (· - ·) (biased x0 x1 x2 x3 x4 x5 (ix2 r q)) hs

/-- The sum of the exponentials of the centred row r. -/
theorem expSum (r : Fin 100000) : val_main_call3_v7 (F := Ideal) x0 x1 x2 x3 x4 x5 (ix1 r)
    = ∑ k : Fin 40, Ideal.exp (val_main_v91 (F := Ideal) x0 x1 x2 x3 x4 (ix2 r k) + x5 (ix1 k)
        - rowShift (val_main_v91 (F := Ideal) x0 x1 x2 x3 x4) x5 r) := by
  refine (val_main_call3_v7_apply x0 x1 x2 x3 x4 x5 (ix1 r)).trans ?_
  refine (congrArg (· + _) (show val_main_call3_cst_1 (F := Ideal) (Shape.Idx.first h_S_) = (0 : EReal) from
    Ideal.ofBits_zero_f32)).trans ?_
  refine (zero_add _).trans ?_
  refine Finset.sum_congr rfl fun k _ => ?_
  have e : idx_main_call3_v7 (ix1 r) k = ix2 r k := funext fun a => Fin.ext (by
    match a with
    | ⟨0, _⟩ => rfl
    | ⟨1, _⟩ => rfl)
  refine (congrArg (val_main_call3_v6 (F := Ideal) x0 x1 x2 x3 x4 x5) e).trans ?_
  refine (val_main_call3_v6_apply x0 x1 x2 x3 x4 x5 (ix2 r k)).trans ?_
  exact (Ideal.hostUnary_exp_def _).trans (congrArg Ideal.exp (centred x0 x1 x2 x3 x4 x5 r k))

theorem logSoftmax : val_main_v95 (F := Ideal) x0 x1 x2 x3 x4 x5 = biasLsm (val_main_v91 (F := Ideal) x0 x1 x2 x3 x4) x5 := by
  funext i
  obtain ⟨r, q, rfl⟩ : ∃ (r : Fin 100000) (q : Fin 40), i = ix2 r q := ⟨i 0, i 1, eq_ix2 i⟩
  have e : idx_main_call3_v8 (idx_main_call3_v10 (ix2 r q)) = ix1 r := funext fun a => Fin.ext (by
    match a with
    | ⟨0, _⟩ => rfl)
  have hl : val_main_call3_v10 (F := Ideal) x0 x1 x2 x3 x4 x5 (ix2 r q)
      = Ideal.log (∑ k : Fin 40, Ideal.exp (val_main_v91 (F := Ideal) x0 x1 x2 x3 x4 (ix2 r k) + x5 (ix1 k)
          - rowShift (val_main_v91 (F := Ideal) x0 x1 x2 x3 x4) x5 r)) :=
    (val_main_call3_v10_apply x0 x1 x2 x3 x4 x5 (ix2 r q)).trans
      ((val_main_call3_v9_apply x0 x1 x2 x3 x4 x5 (idx_main_call3_v10 (ix2 r q))).trans
        ((Ideal.hostUnary_log_def _).trans (congrArg Ideal.log ((val_main_call3_v8_apply x0 x1 x2 x3 x4 x5 (idx_main_call3_v10 (ix2 r q))).trans
          ((congrArg (val_main_call3_v7 (F := Ideal) x0 x1 x2 x3 x4 x5) e).trans (expSum x0 x1 x2 x3 x4 x5 r))))))
  refine (val_main_v95_apply x0 x1 x2 x3 x4 x5 (ix2 r q)).trans ?_
  refine (congrArg₂ (· - ·) (centred x0 x1 x2 x3 x4 x5 r q) hl).trans ?_
  exact (biasLsm_apply (val_main_v91 (F := Ideal) x0 x1 x2 x3 x4) x5 r q).symm

/-! ## The whole reference -/

/-- The reference's result is the network of its six arguments. -/
theorem result_eq : val_main_v95 (F := Ideal) x0 x1 x2 x3 x4 x5 = network x0 x1 x2 x3 x4 x5 := by
  rw [logSoftmax, aggregation2, product2, relu, aggregation1, product1, weight2, dinv2, sources2, targets2, weight1, dinv1,
    sources1, targets1]
  rfl

end Cert.Gcn.Ref

end
-- ==== Proof.RefStages.lean ====
/-
  The idealized reference program read stage by stage. Its 138 host operations are cut into twelve consecutive
  stretches (the first product and the preparation of the edge list; the selection of the inverse square roots; the edge
  weights; the first aggregation; the bias and the maximum with zero; the second product and the second preparation; the
  second selection; the second weights; the second aggregation; the bias; the row maximum; the rest of the log-softmax),
  and after each stretch the buffers the later stretches read hold the composed operations of the six arguments. The
  operations of an outlined function read and write through typed references; each is first restated as the plain
  operation it is.
-/
import proofs.«112788_j34746285424664_1_alg».proof.Proof.RefRunPatched
import proofs.«112788_j34746285424664_1_alg».proof.Proof.RefReadPatched

set_option maxRecDepth 16384

noncomputable section

namespace Cert.Gcn.RefStages

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

/-- Running two stretches one after the other is running their concatenation. -/
theorem after_append {Val : EltTy → Type} (l1 l2 : List (HloOp τ sig Val)) (V : Valuation τ sig Val) :
    after (l1 ++ l2) V = after l2 (after l1 V) := by
  induction l1 generalizing V with
  | nil => rfl
  | cons op l ih => exact ih _

/-- Two arrays joined along an axis, with the two pieces as plain arguments instead of a list of shape-and-array pairs. -/
def joined2 {α : Type} (t : Shape) (ax : Fin t.rank) (s1 s2 : Shape) (a : s1.Idx → α) (b : s2.Idx → α)
    (h : Shape.Concatenates [s1, s2] t ax) : t.Idx → α :=
  concatenate t ax [⟨s1, a⟩, ⟨s2, b⟩] h
theorem joined2_def {α : Type} (t : Shape) (ax : Fin t.rank) (s1 s2 : Shape) (a : s1.Idx → α) (b : s2.Idx → α)
    (h : Shape.Concatenates [s1, s2] t ax) : concatenate t ax [⟨s1, a⟩, ⟨s2, b⟩] h = joined2 t ax s1 s2 a b h := rfl

/-- Each operation's result at its own buffer is its function's value, at any other buffer what was there; a two-piece
    concatenation is read with its pieces as plain arguments. -/
local macro "read_results" : tactic =>
  `(tactic| (simp (disch := decide) only [after_cons, after_nil, joined2_def,
      nullary_result', unary_result', binary_result', ternary_result', reshape_result',
      nullary_result_ne', unary_result_ne', binary_result_ne', ternary_result_ne', reshape_result_ne']))

variable {F : FTy → Type} [FloatOps F]

/-! ## The transports of the row maximum's three typed references

A value read or written through a typed reference is transported along "the buffer's type is the value's type", the
identity since the equation holds by computation. -/

theorem toBuf_rowMax (p1 p2 p3) (v : (⟨S100000, .f32⟩ : BufTy).Contents (Elt F)) :
    (TRef.of (sig := sig) (T := ⟨S100000, .f32⟩) main_call3_v0 p1 p2 p3).toBuf v = v := rfl
theorem ofBuf_biased (p1 p2 p3) (v : (⟨S100000x40, .f32⟩ : BufTy).Contents (Elt F)) :
    (TRef.of (sig := sig) (T := ⟨S100000x40, .f32⟩) main_v94 p1 p2 p3).ofBuf v = v := rfl
theorem ofBuf_negInf (p1 p2 p3) (v : (⟨S_, .f32⟩ : BufTy).Contents (Elt F)) :
    (TRef.of (sig := sig) (T := ⟨S_, .f32⟩) main_call3_cst p1 p2 p3).ofBuf v = v := rfl

/-! ## The stretches -/

/-- Operations 1 to 19 of the program. -/
abbrev opsA : List (HloOp τ sig (Elt F)) :=
  [ binary main_arg0 main_arg2 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_v1 (iotaInDim S100000 32 0),
    unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    reshape main_v2 main_v3 rfl shapeCasts_S1x1600000_S1600000,
    binary main_v3 main_v1 main_v4 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v5 ((extractStridedSlice S1x1600000 ![1, 0] · slices_S2x1600000_S1x1600000_1_0) : (⟨S2x1600000, .i32⟩ : BufTy).Contents (Elt F) → (⟨S1x1600000, .i32⟩ : BufTy).Contents (Elt F)),
    reshape main_v5 main_v6 rfl shapeCasts_S1x1600000_S1600000,
    binary main_v6 main_v1 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- Operations 20 to 22 of the program. -/
abbrev opsB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- The same operations without the typed references. -/
abbrev opsBp : List (HloOp τ sig (Elt F)) :=
  [ unary main_cst_2 main_call0_v0 (id : (⟨S_, .f32⟩ : BufTy).Contents (Elt F) → (⟨S_, .f32⟩ : BufTy).Contents (Elt F)),
    unary main_call0_v0 main_call0_v1 (broadcastInDim S100000 ![] bcast_S_S100000 : (⟨S_, .f32⟩ : BufTy).Contents (Elt F) → (⟨S100000, .f32⟩ : BufTy).Contents (Elt F)),
    ternary main_v13 main_v14 main_call0_v1 main_v15 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]
theorem opsB_plain : (opsB : List (HloOp τ sig (Elt F))) = opsBp := rfl

/-- Operations 23 to 41 of the program. -/
abbrev opsC : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v4 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v4 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v4 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

/-- Operations 42 to 57 of the program. -/
abbrev opsD : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v4 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v4 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v4 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v0 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Operations 58 to 63 of the program. -/
abbrev opsE : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- The same operations without the typed references. -/
abbrev opsEp : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    nullary main_call1_cst (constant S_ .f32 0x00000000#32 : (⟨S_, .f32⟩ : BufTy).Contents (Elt F)),
    unary main_call1_cst main_call1_v0 (broadcastInDim S100000x64 ![] bcast_S_S100000x64 : (⟨S_, .f32⟩ : BufTy).Contents (Elt F) → (⟨S100000x64, .f32⟩ : BufTy).Contents (Elt F)),
    binary main_v46 main_call1_v0 main_v47 (maximumf : (⟨S100000x64, .f32⟩ : BufTy).Contents (Elt F) → (⟨S100000x64, .f32⟩ : BufTy).Contents (Elt F) → (⟨S100000x64, .f32⟩ : BufTy).Contents (Elt F)) ]
theorem opsE_plain : (opsE : List (HloOp τ sig (Elt F))) = opsEp := rfl

/-- Operations 64 to 82 of the program. -/
abbrev opsF : List (HloOp τ sig (Elt F)) :=
  [ binary main_v47 main_arg4 main_v48 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    nullary main_v49 (iotaInDim S100000 32 0),
    unary main_arg1 main_v50 ((extractStridedSlice S1x1600000 ![0, 0] · slices_S2x1600000_S1x1600000_0_0) : (⟨S2x1600000, .i32⟩ : BufTy).Contents (Elt F) → (⟨S1x1600000, .i32⟩ : BufTy).Contents (Elt F)),
    reshape main_v50 main_v51 rfl shapeCasts_S1x1600000_S1600000,
    binary main_v51 main_v49 main_v52 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v53 ((extractStridedSlice S1x1600000 ![1, 0] · slices_S2x1600000_S1x1600000_1_0) : (⟨S2x1600000, .i32⟩ : BufTy).Contents (Elt F) → (⟨S1x1600000, .i32⟩ : BufTy).Contents (Elt F)),
    reshape main_v53 main_v54 rfl shapeCasts_S1x1600000_S1600000,
    binary main_v54 main_v49 main_v55 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v56 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S1700000x1 ![0] bcast_S1700000_S1700000x1_0 : (⟨S1700000, .i32⟩ : BufTy).Contents (Elt F) → (⟨S1700000x1, .i32⟩ : BufTy).Contents (Elt F)),
    ternary main_v57 main_v58 main_v56 main_v59 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32) ]

/-- Operations 83 to 85 of the program. -/
abbrev opsG : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v61) (TRef.of (T := ⟨S100000, .f32⟩) main_v62) (TRef.of (T := ⟨S100000, .f32⟩) main_call2_v1) (TRef.of (T := ⟨S100000, .f32⟩) main_v63) select ]

/-- The same operations without the typed references. -/
abbrev opsGp : List (HloOp τ sig (Elt F)) :=
  [ unary main_cst_12 main_call2_v0 (id : (⟨S_, .f32⟩ : BufTy).Contents (Elt F) → (⟨S_, .f32⟩ : BufTy).Contents (Elt F)),
    unary main_call2_v0 main_call2_v1 (broadcastInDim S100000 ![] bcast_S_S100000 : (⟨S_, .f32⟩ : BufTy).Contents (Elt F) → (⟨S100000, .f32⟩ : BufTy).Contents (Elt F)),
    ternary main_v61 main_v62 main_call2_v1 main_v63 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]
theorem opsG_plain : (opsG : List (HloOp τ sig (Elt F))) = opsGp := rfl

/-- Operations 86 to 104 of the program. -/
abbrev opsH : List (HloOp τ sig (Elt F)) :=
  [ nullary main_c_13 (constantI S_ 32 0#32),
    unary main_c_13 main_v64 (broadcastInDim S1700000 ![] bcast_S_S1700000 : (⟨S_, .i32⟩ : BufTy).Contents (Elt F) → (⟨S1700000, .i32⟩ : BufTy).Contents (Elt F)),
    binary main_v52 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v66 (broadcastInDim S1700000 ![] bcast_S_S1700000 : (⟨S_, .i32⟩ : BufTy).Contents (Elt F) → (⟨S1700000, .i32⟩ : BufTy).Contents (Elt F)),
    binary main_v52 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v52 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v63 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v71 (broadcastInDim S1700000 ![] bcast_S_S1700000 : (⟨S_, .i32⟩ : BufTy).Contents (Elt F) → (⟨S1700000, .i32⟩ : BufTy).Contents (Elt F)),
    binary main_v55 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v73 (broadcastInDim S1700000 ![] bcast_S_S1700000 : (⟨S_, .i32⟩ : BufTy).Contents (Elt F) → (⟨S1700000, .i32⟩ : BufTy).Contents (Elt F)),
    binary main_v55 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v55 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v63 main_v76 main_v77 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v70 main_v77 main_v78 (mulf : (⟨S1700000, .f32⟩ : BufTy).Contents (Elt F) → (⟨S1700000, .f32⟩ : BufTy).Contents (Elt F) → (⟨S1700000, .f32⟩ : BufTy).Contents (Elt F)) ]

/-- Operations 105 to 120 of the program. -/
abbrev opsI : List (HloOp τ sig (Elt F)) :=
  [ nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v52 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v52 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v52 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v48 main_v84 main_v85 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v78 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x40 ![0, 1] bcast_S1700000x1_S1700000x40_0_1 : (⟨S1700000x1, .f32⟩ : BufTy).Contents (Elt F) → (⟨S1700000x40, .f32⟩ : BufTy).Contents (Elt F)),
    binary main_v85 main_v87 main_v88 (mulf : (⟨S1700000x40, .f32⟩ : BufTy).Contents (Elt F) → (⟨S1700000x40, .f32⟩ : BufTy).Contents (Elt F) → (⟨S1700000x40, .f32⟩ : BufTy).Contents (Elt F)),
    nullary main_cst_19 (constant S_ .f32 0x00000000#32),
    unary main_cst_19 main_v89 (broadcastInDim S100000x40 ![] bcast_S_S100000x40 : (⟨S_, .f32⟩ : BufTy).Contents (Elt F) → (⟨S100000x40, .f32⟩ : BufTy).Contents (Elt F)),
    unary main_v55 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

/-- Operations 121 to 124 of the program. -/
abbrev opsJ1 : List (HloOp τ sig (Elt F)) :=
  [ unary main_arg5 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32) ]

/-- The same operations without the typed references. -/
abbrev opsJ1p : List (HloOp τ sig (Elt F)) :=
  [ unary main_arg5 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)),
    nullary main_call3_cst (constant S_ .f32 0xFF800000#32 : (⟨S_, .f32⟩ : BufTy).Contents (Elt F)) ]
theorem opsJ1_plain : (opsJ1 : List (HloOp τ sig (Elt F))) = opsJ1p := rfl

/-- Operations 125 to 125 of the program. -/
abbrev opsJ2 : List (HloOp τ sig (Elt F)) :=
  [ TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_) ]

/-- The same operations without the typed references. -/
abbrev opsJ2p : List (HloOp τ sig (Elt F)) :=
  [ binary main_v94 main_call3_cst main_call3_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)) ]
theorem opsJ2_plain : (opsJ2 : List (HloOp τ sig (Elt F))) = opsJ2p := by
  have hg : (fun (u : (Proc.devRef .tc main_v94 : DevRef τ sig).ty.Contents (Elt F)) (v : (Proc.devRef .tc main_call3_cst : DevRef τ sig).ty.Contents (Elt F)) =>
        (TRef.of (sig := sig) (T := ⟨S100000, .f32⟩) main_call3_v0).toBuf
          (Host.reduce FloatOps.maximumf ((TRef.of (sig := sig) (T := ⟨S100000x40, .f32⟩) main_v94).ofBuf u)
            ((TRef.of (sig := sig) (T := ⟨S_, .f32⟩) main_call3_cst).ofBuf v) reducesTo_S100000x40_S100000_d1 h_S_))
      = ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)) := by
    funext u v
    rw [toBuf_rowMax, ofBuf_biased, ofBuf_negInf]
  exact congrArg (fun g => [binary main_v94 main_call3_cst main_call3_v0 g]) hg

/-- Operations 126 to 138 of the program. -/
abbrev opsJ3 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v94) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]

/-- The same operations without the typed references. -/
abbrev opsJ3p : List (HloOp τ sig (Elt F)) :=
  [ nullary main_call3_cst_0 (constant S_ .f32 0xFF800000#32 : (⟨S_, .f32⟩ : BufTy).Contents (Elt F)),
    unary main_call3_cst_0 main_call3_v1 (broadcastInDim S100000 ![] bcast_S_S100000 : (⟨S_, .f32⟩ : BufTy).Contents (Elt F) → (⟨S100000, .f32⟩ : BufTy).Contents (Elt F)),
    binary main_call3_v1 main_call3_v0 main_call3_v2 (maximumf : (⟨S100000, .f32⟩ : BufTy).Contents (Elt F) → (⟨S100000, .f32⟩ : BufTy).Contents (Elt F) → (⟨S100000, .f32⟩ : BufTy).Contents (Elt F)),
    unary main_call3_v2 main_call3_v3 (broadcastInDim S100000x1 ![0] bcast_S100000_S100000x1_0 : (⟨S100000, .f32⟩ : BufTy).Contents (Elt F) → (⟨S100000x1, .f32⟩ : BufTy).Contents (Elt F)),
    unary main_call3_v3 main_call3_v4 (broadcastInDim S100000x40 ![0, 1] bcast_S100000x1_S100000x40_0_1 : (⟨S100000x1, .f32⟩ : BufTy).Contents (Elt F) → (⟨S100000x40, .f32⟩ : BufTy).Contents (Elt F)),
    binary main_v94 main_call3_v4 main_call3_v5 (subf : (⟨S100000x40, .f32⟩ : BufTy).Contents (Elt F) → (⟨S100000x40, .f32⟩ : BufTy).Contents (Elt F) → (⟨S100000x40, .f32⟩ : BufTy).Contents (Elt F)),
    unary main_call3_v5 main_call3_v6 (Host.exp : (⟨S100000x40, .f32⟩ : BufTy).Contents (Elt F) → (⟨S100000x40, .f32⟩ : BufTy).Contents (Elt F)),
    nullary main_call3_cst_1 (constant S_ .f32 0x00000000#32 : (⟨S_, .f32⟩ : BufTy).Contents (Elt F)),
    binary main_call3_v6 main_call3_cst_1 main_call3_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_call3_v7 main_call3_v8 (broadcastInDim S100000x1 ![0] bcast_S100000_S100000x1_0 : (⟨S100000, .f32⟩ : BufTy).Contents (Elt F) → (⟨S100000x1, .f32⟩ : BufTy).Contents (Elt F)),
    unary main_call3_v8 main_call3_v9 (Host.log : (⟨S100000x1, .f32⟩ : BufTy).Contents (Elt F) → (⟨S100000x1, .f32⟩ : BufTy).Contents (Elt F)),
    unary main_call3_v9 main_call3_v10 (broadcastInDim S100000x40 ![0, 1] bcast_S100000x1_S100000x40_0_1 : (⟨S100000x1, .f32⟩ : BufTy).Contents (Elt F) → (⟨S100000x40, .f32⟩ : BufTy).Contents (Elt F)),
    binary main_call3_v5 main_call3_v10 main_v95 (subf : (⟨S100000x40, .f32⟩ : BufTy).Contents (Elt F) → (⟨S100000x40, .f32⟩ : BufTy).Contents (Elt F) → (⟨S100000x40, .f32⟩ : BufTy).Contents (Elt F)) ]
theorem opsJ3_plain : (opsJ3 : List (HloOp τ sig (Elt F))) = opsJ3p := rfl

/-- The program's operations are the stretches in order. -/
theorem ops_split : (ops : List (HloOp τ sig (Elt F))) = opsA ++ opsB ++ opsC ++ opsD ++ opsE ++ opsF ++ opsG ++ opsH ++ opsI ++ opsJ1 ++ opsJ2 ++ opsJ3 := rfl

variable (W : Valuation τ sig (Elt Ideal))

/-! ## The buffer contents after each stretch -/

/-- After stretch A. -/
abbrev VA : Valuation τ sig (Elt Ideal) := after (opsA (F := Ideal)) W

/-- After stretch B. -/
abbrev VB : Valuation τ sig (Elt Ideal) := after (opsB (F := Ideal)) (VA W)

/-- After stretch C. -/
abbrev VC : Valuation τ sig (Elt Ideal) := after (opsC (F := Ideal)) (VB W)

/-- After stretch D. -/
abbrev VD : Valuation τ sig (Elt Ideal) := after (opsD (F := Ideal)) (VC W)

/-- After stretch E. -/
abbrev VE : Valuation τ sig (Elt Ideal) := after (opsE (F := Ideal)) (VD W)

/-- After stretch F. -/
abbrev VF : Valuation τ sig (Elt Ideal) := after (opsF (F := Ideal)) (VE W)

/-- After stretch G. -/
abbrev VG : Valuation τ sig (Elt Ideal) := after (opsG (F := Ideal)) (VF W)

/-- After stretch H. -/
abbrev VH : Valuation τ sig (Elt Ideal) := after (opsH (F := Ideal)) (VG W)

/-- After stretch I. -/
abbrev VI : Valuation τ sig (Elt Ideal) := after (opsI (F := Ideal)) (VH W)

/-- After stretch J1. -/
abbrev VJ1 : Valuation τ sig (Elt Ideal) := after (opsJ1 (F := Ideal)) (VI W)

/-- After stretch J2. -/
abbrev VJ2 : Valuation τ sig (Elt Ideal) := after (opsJ2 (F := Ideal)) (VJ1 W)

/-- After stretch J3. -/
abbrev VJ3 : Valuation τ sig (Elt Ideal) := after (opsJ3 (F := Ideal)) (VJ2 W)

/-! ### Stretch A -/

theorem sA_v0 : VA W (Proc.devRef .tc main_v0) = val_main_v0 (F := Ideal) (W (Proc.devRef .tc main_arg0)) (W (Proc.devRef .tc main_arg2)) := by
  show after (opsA (F := Ideal)) W (Proc.devRef .tc main_v0) = _
  simp only [opsA]
  read_results <;> exact rfl

theorem sA_v4 : VA W (Proc.devRef .tc main_v4) = val_main_v4 (F := Ideal) (W (Proc.devRef .tc main_arg1)) := by
  show after (opsA (F := Ideal)) W (Proc.devRef .tc main_v4) = _
  simp only [opsA]
  read_results <;> exact rfl

theorem sA_v7 : VA W (Proc.devRef .tc main_v7) = val_main_v7 (F := Ideal) (W (Proc.devRef .tc main_arg1)) := by
  show after (opsA (F := Ideal)) W (Proc.devRef .tc main_v7) = _
  simp only [opsA]
  read_results <;> exact rfl

theorem sA_v13 : VA W (Proc.devRef .tc main_v13) = val_main_v13 (F := Ideal) (W (Proc.devRef .tc main_arg1)) := by
  show after (opsA (F := Ideal)) W (Proc.devRef .tc main_v13) = _
  simp only [opsA]
  read_results <;> exact rfl

theorem sA_v14 : VA W (Proc.devRef .tc main_v14) = val_main_v14 (F := Ideal) (W (Proc.devRef .tc main_arg1)) := by
  show after (opsA (F := Ideal)) W (Proc.devRef .tc main_v14) = _
  simp only [opsA]
  read_results <;> exact rfl

theorem sA_cst_2 : VA W (Proc.devRef .tc main_cst_2) = val_main_cst_2 (F := Ideal) := by
  show after (opsA (F := Ideal)) W (Proc.devRef .tc main_cst_2) = _
  simp only [opsA]
  read_results <;> exact rfl
theorem sA_arg1 : VA W (Proc.devRef .tc main_arg1) = W (Proc.devRef .tc main_arg1) := by
  show after (opsA (F := Ideal)) W (Proc.devRef .tc main_arg1) = _
  simp only [opsA]
  read_results
theorem sA_arg3 : VA W (Proc.devRef .tc main_arg3) = W (Proc.devRef .tc main_arg3) := by
  show after (opsA (F := Ideal)) W (Proc.devRef .tc main_arg3) = _
  simp only [opsA]
  read_results
theorem sA_arg4 : VA W (Proc.devRef .tc main_arg4) = W (Proc.devRef .tc main_arg4) := by
  show after (opsA (F := Ideal)) W (Proc.devRef .tc main_arg4) = _
  simp only [opsA]
  read_results
theorem sA_arg5 : VA W (Proc.devRef .tc main_arg5) = W (Proc.devRef .tc main_arg5) := by
  show after (opsA (F := Ideal)) W (Proc.devRef .tc main_arg5) = _
  simp only [opsA]
  read_results

/-! ### Stretch B -/

theorem sB_v15 : VB W (Proc.devRef .tc main_v15) = val_main_v15 (F := Ideal) (W (Proc.devRef .tc main_arg1)) := by
  have h0 := sA_v13 W
  have h1 := sA_v14 W
  have h2 := sA_cst_2 W
  show after (opsB (F := Ideal)) (VA W) (Proc.devRef .tc main_v15) = _
  rw [opsB_plain]
  generalize VA W = V at h0 h1 h2 ⊢
  simp only [opsBp]
  read_results
  rw [h0, h1, h2]
  exact rfl
theorem sB_v0 : VB W (Proc.devRef .tc main_v0) = val_main_v0 (F := Ideal) (W (Proc.devRef .tc main_arg0)) (W (Proc.devRef .tc main_arg2)) := by
  refine Eq.trans ?_ (sA_v0 W)
  show after (opsB (F := Ideal)) (VA W) (Proc.devRef .tc main_v0) = _
  rw [opsB_plain]
  generalize VA W = V
  simp only [opsBp]
  read_results
theorem sB_v4 : VB W (Proc.devRef .tc main_v4) = val_main_v4 (F := Ideal) (W (Proc.devRef .tc main_arg1)) := by
  refine Eq.trans ?_ (sA_v4 W)
  show after (opsB (F := Ideal)) (VA W) (Proc.devRef .tc main_v4) = _
  rw [opsB_plain]
  generalize VA W = V
  simp only [opsBp]
  read_results
theorem sB_v7 : VB W (Proc.devRef .tc main_v7) = val_main_v7 (F := Ideal) (W (Proc.devRef .tc main_arg1)) := by
  refine Eq.trans ?_ (sA_v7 W)
  show after (opsB (F := Ideal)) (VA W) (Proc.devRef .tc main_v7) = _
  rw [opsB_plain]
  generalize VA W = V
  simp only [opsBp]
  read_results
theorem sB_arg1 : VB W (Proc.devRef .tc main_arg1) = W (Proc.devRef .tc main_arg1) := by
  refine Eq.trans ?_ (sA_arg1 W)
  show after (opsB (F := Ideal)) (VA W) (Proc.devRef .tc main_arg1) = _
  rw [opsB_plain]
  generalize VA W = V
  simp only [opsBp]
  read_results
theorem sB_arg3 : VB W (Proc.devRef .tc main_arg3) = W (Proc.devRef .tc main_arg3) := by
  refine Eq.trans ?_ (sA_arg3 W)
  show after (opsB (F := Ideal)) (VA W) (Proc.devRef .tc main_arg3) = _
  rw [opsB_plain]
  generalize VA W = V
  simp only [opsBp]
  read_results
theorem sB_arg4 : VB W (Proc.devRef .tc main_arg4) = W (Proc.devRef .tc main_arg4) := by
  refine Eq.trans ?_ (sA_arg4 W)
  show after (opsB (F := Ideal)) (VA W) (Proc.devRef .tc main_arg4) = _
  rw [opsB_plain]
  generalize VA W = V
  simp only [opsBp]
  read_results
theorem sB_arg5 : VB W (Proc.devRef .tc main_arg5) = W (Proc.devRef .tc main_arg5) := by
  refine Eq.trans ?_ (sA_arg5 W)
  show after (opsB (F := Ideal)) (VA W) (Proc.devRef .tc main_arg5) = _
  rw [opsB_plain]
  generalize VA W = V
  simp only [opsBp]
  read_results

/-! ### Stretch C -/

theorem sC_v30 : VC W (Proc.devRef .tc main_v30) = val_main_v30 (F := Ideal) (W (Proc.devRef .tc main_arg1)) := by
  have h0 := sB_v4 W
  have h1 := sB_v7 W
  have h2 := sB_v15 W
  show after (opsC (F := Ideal)) (VB W) (Proc.devRef .tc main_v30) = _
  generalize VB W = V at h0 h1 h2 ⊢
  simp only [opsC]
  read_results
  rw [h0, h1, h2]
  exact rfl
theorem sC_v0 : VC W (Proc.devRef .tc main_v0) = val_main_v0 (F := Ideal) (W (Proc.devRef .tc main_arg0)) (W (Proc.devRef .tc main_arg2)) := by
  refine Eq.trans ?_ (sB_v0 W)
  show after (opsC (F := Ideal)) (VB W) (Proc.devRef .tc main_v0) = _
  generalize VB W = V
  simp only [opsC]
  read_results
theorem sC_v4 : VC W (Proc.devRef .tc main_v4) = val_main_v4 (F := Ideal) (W (Proc.devRef .tc main_arg1)) := by
  refine Eq.trans ?_ (sB_v4 W)
  show after (opsC (F := Ideal)) (VB W) (Proc.devRef .tc main_v4) = _
  generalize VB W = V
  simp only [opsC]
  read_results
theorem sC_v7 : VC W (Proc.devRef .tc main_v7) = val_main_v7 (F := Ideal) (W (Proc.devRef .tc main_arg1)) := by
  refine Eq.trans ?_ (sB_v7 W)
  show after (opsC (F := Ideal)) (VB W) (Proc.devRef .tc main_v7) = _
  generalize VB W = V
  simp only [opsC]
  read_results
theorem sC_arg1 : VC W (Proc.devRef .tc main_arg1) = W (Proc.devRef .tc main_arg1) := by
  refine Eq.trans ?_ (sB_arg1 W)
  show after (opsC (F := Ideal)) (VB W) (Proc.devRef .tc main_arg1) = _
  generalize VB W = V
  simp only [opsC]
  read_results
theorem sC_arg3 : VC W (Proc.devRef .tc main_arg3) = W (Proc.devRef .tc main_arg3) := by
  refine Eq.trans ?_ (sB_arg3 W)
  show after (opsC (F := Ideal)) (VB W) (Proc.devRef .tc main_arg3) = _
  generalize VB W = V
  simp only [opsC]
  read_results
theorem sC_arg4 : VC W (Proc.devRef .tc main_arg4) = W (Proc.devRef .tc main_arg4) := by
  refine Eq.trans ?_ (sB_arg4 W)
  show after (opsC (F := Ideal)) (VB W) (Proc.devRef .tc main_arg4) = _
  generalize VB W = V
  simp only [opsC]
  read_results
theorem sC_arg5 : VC W (Proc.devRef .tc main_arg5) = W (Proc.devRef .tc main_arg5) := by
  refine Eq.trans ?_ (sB_arg5 W)
  show after (opsC (F := Ideal)) (VB W) (Proc.devRef .tc main_arg5) = _
  generalize VB W = V
  simp only [opsC]
  read_results

/-! ### Stretch D -/

theorem sD_v43 : VD W (Proc.devRef .tc main_v43) = val_main_v43 (F := Ideal) (W (Proc.devRef .tc main_arg0)) (W (Proc.devRef .tc main_arg1)) (W (Proc.devRef .tc main_arg2)) := by
  have h0 := sC_v0 W
  have h1 := sC_v4 W
  have h2 := sC_v7 W
  have h3 := sC_v30 W
  show after (opsD (F := Ideal)) (VC W) (Proc.devRef .tc main_v43) = _
  generalize VC W = V at h0 h1 h2 h3 ⊢
  simp only [opsD]
  read_results
  rw [h0, h1, h2, h3]
  exact rfl
theorem sD_arg1 : VD W (Proc.devRef .tc main_arg1) = W (Proc.devRef .tc main_arg1) := by
  refine Eq.trans ?_ (sC_arg1 W)
  show after (opsD (F := Ideal)) (VC W) (Proc.devRef .tc main_arg1) = _
  generalize VC W = V
  simp only [opsD]
  read_results
theorem sD_arg3 : VD W (Proc.devRef .tc main_arg3) = W (Proc.devRef .tc main_arg3) := by
  refine Eq.trans ?_ (sC_arg3 W)
  show after (opsD (F := Ideal)) (VC W) (Proc.devRef .tc main_arg3) = _
  generalize VC W = V
  simp only [opsD]
  read_results
theorem sD_arg4 : VD W (Proc.devRef .tc main_arg4) = W (Proc.devRef .tc main_arg4) := by
  refine Eq.trans ?_ (sC_arg4 W)
  show after (opsD (F := Ideal)) (VC W) (Proc.devRef .tc main_arg4) = _
  generalize VC W = V
  simp only [opsD]
  read_results
theorem sD_arg5 : VD W (Proc.devRef .tc main_arg5) = W (Proc.devRef .tc main_arg5) := by
  refine Eq.trans ?_ (sC_arg5 W)
  show after (opsD (F := Ideal)) (VC W) (Proc.devRef .tc main_arg5) = _
  generalize VC W = V
  simp only [opsD]
  read_results

/-! ### Stretch E -/

theorem sE_v47 : VE W (Proc.devRef .tc main_v47) = val_main_v47 (F := Ideal) (W (Proc.devRef .tc main_arg0)) (W (Proc.devRef .tc main_arg1)) (W (Proc.devRef .tc main_arg2)) (W (Proc.devRef .tc main_arg3)) := by
  have h0 := sD_v43 W
  have h1 := sD_arg3 W
  show after (opsE (F := Ideal)) (VD W) (Proc.devRef .tc main_v47) = _
  rw [opsE_plain]
  generalize VD W = V at h0 h1 ⊢
  simp only [opsEp]
  read_results
  rw [h0, h1]
  exact rfl
theorem sE_arg1 : VE W (Proc.devRef .tc main_arg1) = W (Proc.devRef .tc main_arg1) := by
  refine Eq.trans ?_ (sD_arg1 W)
  show after (opsE (F := Ideal)) (VD W) (Proc.devRef .tc main_arg1) = _
  rw [opsE_plain]
  generalize VD W = V
  simp only [opsEp]
  read_results
theorem sE_arg4 : VE W (Proc.devRef .tc main_arg4) = W (Proc.devRef .tc main_arg4) := by
  refine Eq.trans ?_ (sD_arg4 W)
  show after (opsE (F := Ideal)) (VD W) (Proc.devRef .tc main_arg4) = _
  rw [opsE_plain]
  generalize VD W = V
  simp only [opsEp]
  read_results
theorem sE_arg5 : VE W (Proc.devRef .tc main_arg5) = W (Proc.devRef .tc main_arg5) := by
  refine Eq.trans ?_ (sD_arg5 W)
  show after (opsE (F := Ideal)) (VD W) (Proc.devRef .tc main_arg5) = _
  rw [opsE_plain]
  generalize VD W = V
  simp only [opsEp]
  read_results

/-! ### Stretch F -/

theorem sF_v48 : VF W (Proc.devRef .tc main_v48) = val_main_v48 (F := Ideal) (W (Proc.devRef .tc main_arg0)) (W (Proc.devRef .tc main_arg1)) (W (Proc.devRef .tc main_arg2)) (W (Proc.devRef .tc main_arg3)) (W (Proc.devRef .tc main_arg4)) := by
  have h0 := sE_v47 W
  have h1 := sE_arg4 W
  show after (opsF (F := Ideal)) (VE W) (Proc.devRef .tc main_v48) = _
  generalize VE W = V at h0 h1 ⊢
  simp only [opsF]
  read_results
  rw [h0, h1]
  exact rfl

theorem sF_v52 : VF W (Proc.devRef .tc main_v52) = val_main_v52 (F := Ideal) (W (Proc.devRef .tc main_arg1)) := by
  have h0 := sE_arg1 W
  show after (opsF (F := Ideal)) (VE W) (Proc.devRef .tc main_v52) = _
  generalize VE W = V at h0 ⊢
  simp only [opsF]
  read_results
  rw [h0]
  exact rfl

theorem sF_v55 : VF W (Proc.devRef .tc main_v55) = val_main_v55 (F := Ideal) (W (Proc.devRef .tc main_arg1)) := by
  have h0 := sE_arg1 W
  show after (opsF (F := Ideal)) (VE W) (Proc.devRef .tc main_v55) = _
  generalize VE W = V at h0 ⊢
  simp only [opsF]
  read_results
  rw [h0]
  exact rfl

theorem sF_v61 : VF W (Proc.devRef .tc main_v61) = val_main_v61 (F := Ideal) (W (Proc.devRef .tc main_arg1)) := by
  have h0 := sE_arg1 W
  show after (opsF (F := Ideal)) (VE W) (Proc.devRef .tc main_v61) = _
  generalize VE W = V at h0 ⊢
  simp only [opsF]
  read_results
  rw [h0]
  exact rfl

theorem sF_v62 : VF W (Proc.devRef .tc main_v62) = val_main_v62 (F := Ideal) (W (Proc.devRef .tc main_arg1)) := by
  have h0 := sE_arg1 W
  show after (opsF (F := Ideal)) (VE W) (Proc.devRef .tc main_v62) = _
  generalize VE W = V at h0 ⊢
  simp only [opsF]
  read_results
  rw [h0]
  exact rfl

theorem sF_cst_12 : VF W (Proc.devRef .tc main_cst_12) = val_main_cst_12 (F := Ideal) := by
  show after (opsF (F := Ideal)) (VE W) (Proc.devRef .tc main_cst_12) = _
  generalize VE W = V
  simp only [opsF]
  read_results
  exact rfl
theorem sF_arg5 : VF W (Proc.devRef .tc main_arg5) = W (Proc.devRef .tc main_arg5) := by
  refine Eq.trans ?_ (sE_arg5 W)
  show after (opsF (F := Ideal)) (VE W) (Proc.devRef .tc main_arg5) = _
  generalize VE W = V
  simp only [opsF]
  read_results

/-! ### Stretch G -/

theorem sG_v63 : VG W (Proc.devRef .tc main_v63) = val_main_v63 (F := Ideal) (W (Proc.devRef .tc main_arg1)) := by
  have h0 := sF_v61 W
  have h1 := sF_v62 W
  have h2 := sF_cst_12 W
  show after (opsG (F := Ideal)) (VF W) (Proc.devRef .tc main_v63) = _
  rw [opsG_plain]
  generalize VF W = V at h0 h1 h2 ⊢
  simp only [opsGp]
  read_results
  rw [h0, h1, h2]
  exact rfl
theorem sG_v48 : VG W (Proc.devRef .tc main_v48) = val_main_v48 (F := Ideal) (W (Proc.devRef .tc main_arg0)) (W (Proc.devRef .tc main_arg1)) (W (Proc.devRef .tc main_arg2)) (W (Proc.devRef .tc main_arg3)) (W (Proc.devRef .tc main_arg4)) := by
  refine Eq.trans ?_ (sF_v48 W)
  show after (opsG (F := Ideal)) (VF W) (Proc.devRef .tc main_v48) = _
  rw [opsG_plain]
  generalize VF W = V
  simp only [opsGp]
  read_results
theorem sG_v52 : VG W (Proc.devRef .tc main_v52) = val_main_v52 (F := Ideal) (W (Proc.devRef .tc main_arg1)) := by
  refine Eq.trans ?_ (sF_v52 W)
  show after (opsG (F := Ideal)) (VF W) (Proc.devRef .tc main_v52) = _
  rw [opsG_plain]
  generalize VF W = V
  simp only [opsGp]
  read_results
theorem sG_v55 : VG W (Proc.devRef .tc main_v55) = val_main_v55 (F := Ideal) (W (Proc.devRef .tc main_arg1)) := by
  refine Eq.trans ?_ (sF_v55 W)
  show after (opsG (F := Ideal)) (VF W) (Proc.devRef .tc main_v55) = _
  rw [opsG_plain]
  generalize VF W = V
  simp only [opsGp]
  read_results
theorem sG_arg5 : VG W (Proc.devRef .tc main_arg5) = W (Proc.devRef .tc main_arg5) := by
  refine Eq.trans ?_ (sF_arg5 W)
  show after (opsG (F := Ideal)) (VF W) (Proc.devRef .tc main_arg5) = _
  rw [opsG_plain]
  generalize VF W = V
  simp only [opsGp]
  read_results

/-! ### Stretch H -/

theorem sH_v78 : VH W (Proc.devRef .tc main_v78) = val_main_v78 (F := Ideal) (W (Proc.devRef .tc main_arg1)) := by
  have h0 := sG_v52 W
  have h1 := sG_v55 W
  have h2 := sG_v63 W
  show after (opsH (F := Ideal)) (VG W) (Proc.devRef .tc main_v78) = _
  generalize VG W = V at h0 h1 h2 ⊢
  simp only [opsH]
  read_results
  rw [h0, h1, h2]
  exact rfl
theorem sH_v48 : VH W (Proc.devRef .tc main_v48) = val_main_v48 (F := Ideal) (W (Proc.devRef .tc main_arg0)) (W (Proc.devRef .tc main_arg1)) (W (Proc.devRef .tc main_arg2)) (W (Proc.devRef .tc main_arg3)) (W (Proc.devRef .tc main_arg4)) := by
  refine Eq.trans ?_ (sG_v48 W)
  show after (opsH (F := Ideal)) (VG W) (Proc.devRef .tc main_v48) = _
  generalize VG W = V
  simp only [opsH]
  read_results
theorem sH_v52 : VH W (Proc.devRef .tc main_v52) = val_main_v52 (F := Ideal) (W (Proc.devRef .tc main_arg1)) := by
  refine Eq.trans ?_ (sG_v52 W)
  show after (opsH (F := Ideal)) (VG W) (Proc.devRef .tc main_v52) = _
  generalize VG W = V
  simp only [opsH]
  read_results
theorem sH_v55 : VH W (Proc.devRef .tc main_v55) = val_main_v55 (F := Ideal) (W (Proc.devRef .tc main_arg1)) := by
  refine Eq.trans ?_ (sG_v55 W)
  show after (opsH (F := Ideal)) (VG W) (Proc.devRef .tc main_v55) = _
  generalize VG W = V
  simp only [opsH]
  read_results
theorem sH_arg5 : VH W (Proc.devRef .tc main_arg5) = W (Proc.devRef .tc main_arg5) := by
  refine Eq.trans ?_ (sG_arg5 W)
  show after (opsH (F := Ideal)) (VG W) (Proc.devRef .tc main_arg5) = _
  generalize VG W = V
  simp only [opsH]
  read_results

/-! ### Stretch I -/

theorem sI_v91 : VI W (Proc.devRef .tc main_v91) = val_main_v91 (F := Ideal) (W (Proc.devRef .tc main_arg0)) (W (Proc.devRef .tc main_arg1)) (W (Proc.devRef .tc main_arg2)) (W (Proc.devRef .tc main_arg3)) (W (Proc.devRef .tc main_arg4)) := by
  have h0 := sH_v48 W
  have h1 := sH_v52 W
  have h2 := sH_v55 W
  have h3 := sH_v78 W
  show after (opsI (F := Ideal)) (VH W) (Proc.devRef .tc main_v91) = _
  generalize VH W = V at h0 h1 h2 h3 ⊢
  simp only [opsI]
  read_results
  rw [h0, h1, h2, h3]
  exact rfl
theorem sI_arg5 : VI W (Proc.devRef .tc main_arg5) = W (Proc.devRef .tc main_arg5) := by
  refine Eq.trans ?_ (sH_arg5 W)
  show after (opsI (F := Ideal)) (VH W) (Proc.devRef .tc main_arg5) = _
  generalize VH W = V
  simp only [opsI]
  read_results

/-! ### Stretch J1 -/

theorem sJ1_v94 : VJ1 W (Proc.devRef .tc main_v94) = val_main_v94 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h0 := sI_v91 W
  have h1 := sI_arg5 W
  show after (opsJ1 (F := Ideal)) (VI W) (Proc.devRef .tc main_v94) = _
  rw [opsJ1_plain]
  generalize VI W = V at h0 h1 ⊢
  simp only [opsJ1p]
  read_results
  rw [h0, h1]
  exact rfl

theorem sJ1_call3_cst : VJ1 W (Proc.devRef .tc main_call3_cst) = val_main_call3_cst (F := Ideal) := by
  show after (opsJ1 (F := Ideal)) (VI W) (Proc.devRef .tc main_call3_cst) = _
  rw [opsJ1_plain]
  generalize VI W = V
  simp only [opsJ1p]
  read_results
  exact rfl

/-! ### Stretch J2 -/

theorem sJ2_call3_v0 : VJ2 W (Proc.devRef .tc main_call3_v0) = val_main_call3_v0 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h0 := sJ1_v94 W
  have h1 := sJ1_call3_cst W
  show after (opsJ2 (F := Ideal)) (VJ1 W) (Proc.devRef .tc main_call3_v0) = _
  rw [opsJ2_plain]
  generalize VJ1 W = V at h0 h1 ⊢
  simp only [opsJ2p]
  read_results
  rw [h0, h1]
  exact rfl
theorem sJ2_v94 : VJ2 W (Proc.devRef .tc main_v94) = val_main_v94 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  refine Eq.trans ?_ (sJ1_v94 W)
  show after (opsJ2 (F := Ideal)) (VJ1 W) (Proc.devRef .tc main_v94) = _
  rw [opsJ2_plain]
  generalize VJ1 W = V
  simp only [opsJ2p]
  read_results

/-! ### Stretch J3 -/

theorem sJ3_v95 : VJ3 W (Proc.devRef .tc main_v95) = val_main_v95 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h0 := sJ2_v94 W
  have h1 := sJ2_call3_v0 W
  show after (opsJ3 (F := Ideal)) (VJ2 W) (Proc.devRef .tc main_v95) = _
  rw [opsJ3_plain]
  generalize VJ2 W = V at h0 h1 ⊢
  simp only [opsJ3p]
  read_results
  rw [h0, h1]
  exact rfl

/-! ## The whole program -/

/-- After all 138 operations the result buffer holds the last stage's composed value of the six arguments. -/
theorem result : after (ops (F := Ideal)) W (Proc.devRef .tc main_v95) = val_main_v95 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [ops_split]
  simp only [after_append]
  exact sJ3_v95 W

end Cert.Gcn.RefStages

end
-- ==== Proof.lean ====
/-
  A two-layer graph convolution network on 100000 nodes and 1600000 edges (plus one self loop per node): the kernel
  program runs the two matrix products and the two bias-and-activation passes as four launches over ten blocks of
  10000 rows each, with the gather / scale / scatter-add over the edge list on the host between them; the reference
  runs everything on the host. On the extended reals both end at ONE function of the six arguments,

      log_softmax_rows (Agg (max (Agg (x · W1) + b1, 0) · W2) + b2),

  where Agg gathers the rows at the edge sources, scales each by dinv[source] · dinv[target] and adds it at the edge
  target. Every step that differs between the two programs is row-local (a block of rows of a product is the product
  of the block; the bias, the maximum with zero and the log-softmax act on each row by itself), and the steps that are
  not row-local (the aggregation) are literally the same host operations in both, so no law of arithmetic beyond
  reading each operation at an index is used, and the finiteness of the inputs is never opened.

  The frames of the two kernel programs are the generated ones; the reference's frame is its run with the result
  dropped; nothing was rewritten by the idealization, so that conjunct is trivial.
-/
import proofs.«112788_j34746285424664_1_alg».proof.Defs
import proofs.«112788_j34746285424664_1_alg».proof.Proof.Gen.Kernel
import proofs.«112788_j34746285424664_1_alg».proof.Proof.Gen.Kernel.Skeleton
import proofs.«112788_j34746285424664_1_alg».proof.Proof.Gen.Kernel.Launch
import proofs.«112788_j34746285424664_1_alg».proof.Proof.Gen.Kernel.Points
import proofs.«112788_j34746285424664_1_alg».proof.Proof.Gen.Kernel.Frame
import proofs.«112788_j34746285424664_1_alg».proof.Proof.Gen.KernelIdeal
import proofs.«112788_j34746285424664_1_alg».proof.Proof.Gen.KernelIdeal.Skeleton
import proofs.«112788_j34746285424664_1_alg».proof.Proof.Gen.KernelIdeal.Launch
import proofs.«112788_j34746285424664_1_alg».proof.Proof.Gen.KernelIdeal.Points
import proofs.«112788_j34746285424664_1_alg».proof.Proof.Gen.KernelIdeal.Frame
import proofs.«112788_j34746285424664_1_alg».proof.Proof.Gen.ReferenceIdeal
import proofs.«112788_j34746285424664_1_alg».proof.Proof.Gen.Pre_finite_inputs
import proofs.«112788_j34746285424664_1_alg».proof.Proof.KernelValue
import proofs.«112788_j34746285424664_1_alg».proof.Proof.RefValue
import proofs.«112788_j34746285424664_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with what it says about the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six arguments both idealized programs end with the network of those arguments in
    their result buffers. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.Gcn.run m ρ, ?_⟩
  refine (θ_run Cert.ReferenceIdeal.defs _ _).mono (fun _ h c => ⟨(h c).1.trans ?_, (h c).2⟩)
    (Cert.ReferenceIdeal.ValueP.run (F := Ideal) m' ρ')
  refine (Cert.Gcn.RefStages.result (StableHlo.launchContents m' c)).trans ?_
  rw [Cert.Gcn.Ref.result_eq]
  show Cert.Gcn.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
